-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S6400000 : Shape := ⟨1, ![6400000]⟩
abbrev S6400000x2 : Shape := ⟨2, ![6400000, 2]⟩
abbrev S130x128 : Shape := ⟨2, ![130, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S6400000x2 : S_.BroadcastsInDim S6400000x2 (![] : Fin 0 → Fin S6400000x2.rank)
  reducesTo_S6400000x2_S_d0_1 : S6400000x2.ReducesTo [0, 1] S_
  bcast_S_S130x128 : S_.BroadcastsInDim S130x128 (![] : Fin 0 → Fin S130x128.rank)
  reducesTo_S130x128_S_d0_1 : S130x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S6400000 32) (main_arg2 : IVec S6400000 32) (main_arg3 : FVec F S6400000x2 .f32) (main_arg4 : FVec F S130x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S6400000x2 .f32 := Host.absf main_arg3
  let main_cst_0 : FVec F S_ .f32 := constant S_ .f32 0x7F800000#32
  let main_v5 : FVec F S6400000x2 .f32 := broadcastInDim S6400000x2 ![] bcast_S_S6400000x2 main_cst_0
  let main_v6 : IVec S6400000x2 1 := cmpf .olt main_v4 main_v5
  let main_c_1 : IVec S_ 1 := constantI S_ 1 1#1
  let main_v7 : IVec S_ 1 := (fun x v => Host.reduce IntOp.andi x v reducesTo_S6400000x2_S_d0_1 h_S_) main_v6 main_c_1
  let main_v8 : IVec S_ 1 := andi main_v3 main_v7
  let main_v9 : FVec F S130x128 .f32 := Host.absf main_arg4
  let main_cst_2 : FVec F S_ .f32 := constant S_ .f32 0x7F800000#32
  let main_v10 : FVec F S130x128 .f32 := broadcastInDim S130x128 ![] bcast_S_S130x128 main_cst_2
  let main_v11 : IVec S130x128 1 := cmpf .olt main_v9 main_v10
  let main_c_3 : IVec S_ 1 := constantI S_ 1 1#1
  let main_v12 : IVec S_ 1 := (fun x v => Host.reduce IntOp.andi x v reducesTo_S130x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S6400000 : Shape := ⟨1, ![6400000]⟩
abbrev S6400000x2 : Shape := ⟨2, ![6400000, 2]⟩
abbrev S130x128 : Shape := ⟨2, ![130, 128]⟩
abbrev S128 : Shape := ⟨1, ![128]⟩
abbrev S100000x2 : Shape := ⟨2, ![100000, 2]⟩
abbrev S_ : Shape := ⟨0, ![]⟩
abbrev S6400000x1 : Shape := ⟨2, ![6400000, 1]⟩
abbrev S12800000 : Shape := ⟨1, ![12800000]⟩
abbrev S12800000x2 : Shape := ⟨2, ![12800000, 2]⟩
abbrev S12800000x1 : Shape := ⟨2, ![12800000, 1]⟩
abbrev S128x128 : Shape := ⟨2, ![128, 128]⟩
abbrev S2x128 : Shape := ⟨2, ![2, 128]⟩
abbrev S1x128 : Shape := ⟨2, ![1, 128]⟩
abbrev S5000x128 : Shape := ⟨2, ![5000, 128]⟩
abbrev S5000x2 : Shape := ⟨2, ![5000, 2]⟩

abbrev nBuf : Space → Nat
  | .hbm => 54
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S6400000, .i32⟩
  | .hbm, ⟨2, _⟩ => ⟨S6400000, .i32⟩
  | .hbm, ⟨3, _⟩ => ⟨S6400000x2, .f32⟩
  | .hbm, ⟨4, _⟩ => ⟨S130x128, .f32⟩
  | .hbm, ⟨5, _⟩ => ⟨S128, .f32⟩
  | .hbm, ⟨6, _⟩ => ⟨S100000x2, .f32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S6400000x2, .f32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000x2, .f32⟩
  | .hbm, ⟨25, _⟩ => ⟨S6400000x2, .f32⟩
  | .hbm, ⟨26, _⟩ => ⟨S6400000x1, .f32⟩
  | .hbm, ⟨27, _⟩ => ⟨S6400000, .f32⟩
  | .hbm, ⟨28, _⟩ => ⟨S6400000x1, .f32⟩
  | .hbm, ⟨29, _⟩ => ⟨S6400000, .f32⟩
  | .hbm, ⟨30, _⟩ => ⟨S6400000x1, .f32⟩
  | .hbm, ⟨31, _⟩ => ⟨S6400000, .f32⟩
  | .hbm, ⟨32, _⟩ => ⟨S6400000x1, .f32⟩
  | .hbm, ⟨33, _⟩ => ⟨S6400000, .f32⟩
  | .hbm, ⟨34, _⟩ => ⟨S6400000, .f32⟩
  | .hbm, ⟨35, _⟩ => ⟨S6400000, .f32⟩
  | .hbm, ⟨36, _⟩ => ⟨S6400000, .f32⟩
  | .hbm, ⟨37, _⟩ => ⟨S6400000, .f32⟩
  | .hbm, ⟨38, _⟩ => ⟨S6400000, .f32⟩
  | .hbm, ⟨39, _⟩ => ⟨S6400000, .f32⟩
  | .hbm, ⟨40, _⟩ => ⟨S6400000x1, .f32⟩
  | .hbm, ⟨41, _⟩ => ⟨S6400000x1, .f32⟩
  | .hbm, ⟨42, _⟩ => ⟨S6400000x2, .f32⟩
  | .hbm, ⟨43, _⟩ => ⟨S12800000, .i32⟩
  | .hbm, ⟨44, _⟩ => ⟨S6400000x2, .f32⟩
  | .hbm, ⟨45, _⟩ => ⟨S12800000x2, .f32⟩
  | .hbm, ⟨46, _⟩ => ⟨S_, .f32⟩
  | .hbm, ⟨47, _⟩ => ⟨S100000x2, .f32⟩
  | .hbm, ⟨48, _⟩ => ⟨S12800000x1, .i32⟩
  | .hbm, ⟨49, _⟩ => ⟨S100000x2, .f32⟩
  | .hbm, ⟨50, _⟩ => ⟨S128x128, .f32⟩
  | .hbm, ⟨51, _⟩ => ⟨S2x128, .f32⟩
  | .hbm, ⟨52, _⟩ => ⟨S1x128, .f32⟩
  | .hbm, ⟨53, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x2, .f32⟩
  | .local _ .vmem, ⟨3, _⟩ => ⟨S5000x2, .f32⟩
  | .local _ .vmem, ⟨4, _⟩ => ⟨S128x128, .f32⟩
  | .local _ .vmem, ⟨5, _⟩ => ⟨S2x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S100000x128_S100000x2_0_0 : S100000x128.Slices ![0, 0] S100000x2
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S6400000x2_S6400000x1_0_0 : S6400000x2.Slices ![0, 0] S6400000x1
  shapeCasts_S6400000x1_S6400000 : S6400000x1.ShapeCasts S6400000
  slices_S6400000x2_S6400000x1_0_1 : S6400000x2.Slices ![0, 1] S6400000x1
  concatenates_S6400000x1_S6400000x1_S6400000x2_d1 : Shape.Concatenates [S6400000x1, S6400000x1] S6400000x2 1
  concatenates_S6400000_S6400000_S12800000_d0 : Shape.Concatenates [S6400000, S6400000] S12800000 0
  concatenates_S6400000x2_S6400000x2_S12800000x2_d0 : Shape.Concatenates [S6400000x2, S6400000x2] S12800000x2 0
  bcast_S_S100000x2 : S_.BroadcastsInDim S100000x2 (![] : Fin 0 → Fin S100000x2.rank)
  bcast_S12800000_S12800000x1_0 : S12800000.BroadcastsInDim S12800000x1 (![0] : Fin 1 → Fin S12800000x1.rank)
  slices_S130x128_S128x128_0_0 : S130x128.Slices ![0, 0] S128x128
  slices_S130x128_S2x128_128_0 : S130x128.Slices ![128, 0] S2x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x2_S6400000x1_S6400000x2_1_0_n_n_0_1_12_wf : GatherDims.WF S100000x2 S6400000x1 S6400000x2 [1] [0] [] [0] [] 1 ![1, 2]
  scatter_S100000x2_S12800000x1_S12800000x2_1_0_0_1_wf : ScatterDims.WF S100000x2 S12800000x1 S12800000x2 [1] [0] [0] 1
  dot_S5000x128_S128x128_S5000x128_1_0_0_1_n_n_wf : DotDims.WF S5000x128 S128x128 S5000x128 [1] [0] [0] [1] [] []
  dot_S5000x2_S2x128_S5000x128_1_0_0_1_n_n_wf : DotDims.WF S5000x2 S2x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf
def scatter_S100000x2_S12800000x1_S12800000x2_1_0_0_1 : ScatterDims S100000x2 S12800000x1 S12800000x2 where
  updateWindowDims := [1]
  insertedWindowDims := [0]
  scatterDimsToOperandDims := [0]
  indexVectorDim := 1
  wf := scatter_S100000x2_S12800000x1_S12800000x2_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x2_S2x128_S5000x128_1_0_0_1_n_n : DotDims S5000x2 S2x128 S5000x128 where
  lhsContracting := [1]
  rhsContracting := [0]
  lhsNonContracting := [0]
  rhsNonContracting := [1]
  lhsBatch := []
  rhsBatch := []
  wf := dot_S5000x2_S2x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S6400000 : Shape := ⟨1, ![6400000]⟩
abbrev S6400000x2 : Shape := ⟨2, ![6400000, 2]⟩
abbrev S130x128 : Shape := ⟨2, ![130, 128]⟩
abbrev S128 : Shape := ⟨1, ![128]⟩
abbrev S100000x2 : Shape := ⟨2, ![100000, 2]⟩
abbrev S_ : Shape := ⟨0, ![]⟩
abbrev S6400000x1 : Shape := ⟨2, ![6400000, 1]⟩
abbrev S100000x130 : Shape := ⟨2, ![100000, 130]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S6400000, .i32⟩
  | .hbm, ⟨2, _⟩ => ⟨S6400000, .i32⟩
  | .hbm, ⟨3, _⟩ => ⟨S6400000x2, .f32⟩
  | .hbm, ⟨4, _⟩ => ⟨S130x128, .f32⟩
  | .hbm, ⟨5, _⟩ => ⟨S128, .f32⟩
  | .hbm, ⟨6, _⟩ => ⟨S100000x2, .f32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S6400000x2, .f32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000x2, .f32⟩
  | .hbm, ⟨25, _⟩ => ⟨S6400000x2, .f32⟩
  | .hbm, ⟨26, _⟩ => ⟨S6400000x1, .f32⟩
  | .hbm, ⟨27, _⟩ => ⟨S6400000, .f32⟩
  | .hbm, ⟨28, _⟩ => ⟨S6400000x1, .f32⟩
  | .hbm, ⟨29, _⟩ => ⟨S6400000, .f32⟩
  | .hbm, ⟨30, _⟩ => ⟨S6400000x1, .f32⟩
  | .hbm, ⟨31, _⟩ => ⟨S6400000, .f32⟩
  | .hbm, ⟨32, _⟩ => ⟨S6400000x1, .f32⟩
  | .hbm, ⟨33, _⟩ => ⟨S6400000, .f32⟩
  | .hbm, ⟨34, _⟩ => ⟨S6400000, .f32⟩
  | .hbm, ⟨35, _⟩ => ⟨S6400000, .f32⟩
  | .hbm, ⟨36, _⟩ => ⟨S6400000, .f32⟩
  | .hbm, ⟨37, _⟩ => ⟨S6400000, .f32⟩
  | .hbm, ⟨38, _⟩ => ⟨S6400000, .f32⟩
  | .hbm, ⟨39, _⟩ => ⟨S6400000, .f32⟩
  | .hbm, ⟨40, _⟩ => ⟨S6400000x1, .f32⟩
  | .hbm, ⟨41, _⟩ => ⟨S6400000x1, .f32⟩
  | .hbm, ⟨42, _⟩ => ⟨S6400000x2, .f32⟩
  | .hbm, ⟨43, _⟩ => ⟨S_, .f32⟩
  | .hbm, ⟨44, _⟩ => ⟨S100000x2, .f32⟩
  | .hbm, ⟨45, _⟩ => ⟨S6400000x1, .i32⟩
  | .hbm, ⟨46, _⟩ => ⟨S100000x2, .f32⟩
  | .hbm, ⟨47, _⟩ => ⟨S_, .f32⟩
  | .hbm, ⟨48, _⟩ => ⟨S100000x2, .f32⟩
  | .hbm, ⟨49, _⟩ => ⟨S6400000x1, .i32⟩
  | .hbm, ⟨50, _⟩ => ⟨S100000x2, .f32⟩
  | .hbm, ⟨51, _⟩ => ⟨S100000x2, .f32⟩
  | .hbm, ⟨52, _⟩ => ⟨S100000x130, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_cst : Ref sig .tc := ⟨.hbm, 57, rfl⟩
abbrev main_call0_v0 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  slices_S100000x128_S100000x2_0_0 : S100000x128.Slices ![0, 0] S100000x2
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S6400000x2_S6400000x1_0_0 : S6400000x2.Slices ![0, 0] S6400000x1
  shapeCasts_S6400000x1_S6400000 : S6400000x1.ShapeCasts S6400000
  slices_S6400000x2_S6400000x1_0_1 : S6400000x2.Slices ![0, 1] S6400000x1
  concatenates_S6400000x1_S6400000x1_S6400000x2_d1 : Shape.Concatenates [S6400000x1, S6400000x1] S6400000x2 1
  bcast_S_S100000x2 : S_.BroadcastsInDim S100000x2 (![] : Fin 0 → Fin S100000x2.rank)
  concatenates_S100000x128_S100000x2_S100000x130_d1 : Shape.Concatenates [S100000x128, S100000x2] S100000x130 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x2_S6400000x1_S6400000x2_1_0_n_n_0_1_12_wf : GatherDims.WF S100000x2 S6400000x1 S6400000x2 [1] [0] [] [0] [] 1 ![1, 2]
  scatter_S100000x2_S6400000x1_S6400000x2_1_0_0_1_wf : ScatterDims.WF S100000x2 S6400000x1 S6400000x2 [1] [0] [0] 1
  dot_S100000x130_S130x128_S100000x128_1_0_0_1_n_n_wf : DotDims.WF S100000x130 S130x128 S100000x128 [1] [0] [0] [1] [] []

variable [Facts₀]

def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf
def dot_S100000x130_S130x128_S100000x128_1_0_0_1_n_n : DotDims S100000x130 S130x128 S100000x128 where
  lhsContracting := [1]
  rhsContracting := [0]
  lhsNonContracting := [0]
  rhsNonContracting := [1]
  lhsBatch := []
  rhsBatch := []
  wf := dot_S100000x130_S130x128_S100000x128_1_0_0_1_n_n_wf

class Facts : Prop extends Facts₀ where

variable [Facts]
-- ==== Proof.KernelHost.lean ====
/-
  The kernel program's host operations before the launch, read in three stretches.

  Before it launches the dense layer the kernel program computes, on the host, the same edge voltages and edge
  currents as the reference (the same 37 operations), and then the net current into each node by ONE scatter:
  the currents followed by their negatives, scattered by the receivers followed by the senders. It also cuts the
  weight matrix into its first 128 rows and its last 2, and lays the bias as one row. As in the reference the
  values form a graph (the edge currents are read twice), so the line is read in three stretches, each over an
  arbitrary state of the buffers before it.
-/
import proofs.«103068_j12678743458331_2_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The operations, in three stretches -/

/-- Up to the edge voltages. -/
abbrev k1 : List (HloOp τ sig (Elt F)) :=
  [ StableHlo.unary main_arg0 main_v0 ((extractStridedSlice S100000x2 ![0, 0] · slices_S100000x128_S100000x2_0_0) : (⟨S100000x128, .f32⟩ : BufTy).Contents (Elt F) → (⟨S100000x2, .f32⟩ : BufTy).Contents (Elt F)),
    StableHlo.nullary main_c (constantI S_ 32 0#32),
    StableHlo.unary main_c main_v1 (broadcastInDim S6400000 ![] bcast_S_S6400000 : (⟨S_, .i32⟩ : BufTy).Contents (Elt F) → (⟨S6400000, .i32⟩ : BufTy).Contents (Elt F)),
    StableHlo.binary main_arg2 main_v1 main_v2 (cmpi .slt : (⟨S6400000, .i32⟩ : BufTy).Contents (Elt F) → (⟨S6400000, .i32⟩ : BufTy).Contents (Elt F) → (⟨S6400000, .i1⟩ : BufTy).Contents (Elt F)),
    StableHlo.nullary main_c_0 (constantI S_ 32 100000#32),
    StableHlo.unary main_c_0 main_v3 (broadcastInDim S6400000 ![] bcast_S_S6400000 : (⟨S_, .i32⟩ : BufTy).Contents (Elt F) → (⟨S6400000, .i32⟩ : BufTy).Contents (Elt F)),
    StableHlo.binary main_arg2 main_v3 main_v4 (addi : (⟨S6400000, .i32⟩ : BufTy).Contents (Elt F) → (⟨S6400000, .i32⟩ : BufTy).Contents (Elt F) → (⟨S6400000, .i32⟩ : BufTy).Contents (Elt F)),
    StableHlo.ternary main_v2 main_v4 main_arg2 main_v5 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v5 main_v6 (broadcastInDim S6400000x1 ![0] bcast_S6400000_S6400000x1_0 : (⟨S6400000, .i32⟩ : BufTy).Contents (Elt F) → (⟨S6400000x1, .i32⟩ : BufTy).Contents (Elt F)),
    StableHlo.binary main_v0 main_v6 main_v7 ((fun x i => Host.gather gather_S100000x2_S6400000x1_S6400000x2_1_0_n_n_0_1_12 x i) : (⟨S100000x2, .f32⟩ : BufTy).Contents (Elt F) → (⟨S6400000x1, .i32⟩ : BufTy).Contents (Elt F) → (⟨S6400000x2, .f32⟩ : BufTy).Contents (Elt F)),
    StableHlo.nullary main_c_1 (constantI S_ 32 0#32),
    StableHlo.unary main_c_1 main_v8 (broadcastInDim S6400000 ![] bcast_S_S6400000 : (⟨S_, .i32⟩ : BufTy).Contents (Elt F) → (⟨S6400000, .i32⟩ : BufTy).Contents (Elt F)),
    StableHlo.binary main_arg1 main_v8 main_v9 (cmpi .slt : (⟨S6400000, .i32⟩ : BufTy).Contents (Elt F) → (⟨S6400000, .i32⟩ : BufTy).Contents (Elt F) → (⟨S6400000, .i1⟩ : BufTy).Contents (Elt F)),
    StableHlo.nullary main_c_2 (constantI S_ 32 100000#32),
    StableHlo.unary main_c_2 main_v10 (broadcastInDim S6400000 ![] bcast_S_S6400000 : (⟨S_, .i32⟩ : BufTy).Contents (Elt F) → (⟨S6400000, .i32⟩ : BufTy).Contents (Elt F)),
    StableHlo.binary main_arg1 main_v10 main_v11 (addi : (⟨S6400000, .i32⟩ : BufTy).Contents (Elt F) → (⟨S6400000, .i32⟩ : BufTy).Contents (Elt F) → (⟨S6400000, .i32⟩ : BufTy).Contents (Elt F)),
    StableHlo.ternary main_v9 main_v11 main_arg1 main_v12 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v12 main_v13 (broadcastInDim S6400000x1 ![0] bcast_S6400000_S6400000x1_0 : (⟨S6400000, .i32⟩ : BufTy).Contents (Elt F) → (⟨S6400000x1, .i32⟩ : BufTy).Contents (Elt F)),
    StableHlo.binary main_v0 main_v13 main_v14 ((fun x i => Host.gather gather_S100000x2_S6400000x1_S6400000x2_1_0_n_n_0_1_12 x i) : (⟨S100000x2, .f32⟩ : BufTy).Contents (Elt F) → (⟨S6400000x1, .i32⟩ : BufTy).Contents (Elt F) → (⟨S6400000x2, .f32⟩ : BufTy).Contents (Elt F)),
    StableHlo.binary main_v7 main_v14 main_v15 (subf : (⟨S6400000x2, .f32⟩ : BufTy).Contents (Elt F) → (⟨S6400000x2, .f32⟩ : BufTy).Contents (Elt F) → (⟨S6400000x2, .f32⟩ : BufTy).Contents (Elt F)) ]

/-- Up to the edge currents. -/
abbrev k2 : List (HloOp τ sig (Elt F)) :=
  [ StableHlo.unary main_arg3 main_v16 ((extractStridedSlice S6400000x1 ![0, 0] · slices_S6400000x2_S6400000x1_0_0) : (⟨S6400000x2, .f32⟩ : BufTy).Contents (Elt F) → (⟨S6400000x1, .f32⟩ : BufTy).Contents (Elt F)),
    StableHlo.reshape main_v16 main_v17 rfl shapeCasts_S6400000x1_S6400000,
    StableHlo.unary main_arg3 main_v18 ((extractStridedSlice S6400000x1 ![0, 1] · slices_S6400000x2_S6400000x1_0_1) : (⟨S6400000x2, .f32⟩ : BufTy).Contents (Elt F) → (⟨S6400000x1, .f32⟩ : BufTy).Contents (Elt F)),
    StableHlo.reshape main_v18 main_v19 rfl shapeCasts_S6400000x1_S6400000,
    StableHlo.unary main_v15 main_v20 ((extractStridedSlice S6400000x1 ![0, 0] · slices_S6400000x2_S6400000x1_0_0) : (⟨S6400000x2, .f32⟩ : BufTy).Contents (Elt F) → (⟨S6400000x1, .f32⟩ : BufTy).Contents (Elt F)),
    StableHlo.reshape main_v20 main_v21 rfl shapeCasts_S6400000x1_S6400000,
    StableHlo.unary main_v15 main_v22 ((extractStridedSlice S6400000x1 ![0, 1] · slices_S6400000x2_S6400000x1_0_1) : (⟨S6400000x2, .f32⟩ : BufTy).Contents (Elt F) → (⟨S6400000x1, .f32⟩ : BufTy).Contents (Elt F)),
    StableHlo.reshape main_v22 main_v23 rfl shapeCasts_S6400000x1_S6400000,
    StableHlo.binary main_v17 main_v21 main_v24 (mulf : (⟨S6400000, .f32⟩ : BufTy).Contents (Elt F) → (⟨S6400000, .f32⟩ : BufTy).Contents (Elt F) → (⟨S6400000, .f32⟩ : BufTy).Contents (Elt F)),
    StableHlo.binary main_v19 main_v23 main_v25 (mulf : (⟨S6400000, .f32⟩ : BufTy).Contents (Elt F) → (⟨S6400000, .f32⟩ : BufTy).Contents (Elt F) → (⟨S6400000, .f32⟩ : BufTy).Contents (Elt F)),
    StableHlo.binary main_v24 main_v25 main_v26 (subf : (⟨S6400000, .f32⟩ : BufTy).Contents (Elt F) → (⟨S6400000, .f32⟩ : BufTy).Contents (Elt F) → (⟨S6400000, .f32⟩ : BufTy).Contents (Elt F)),
    StableHlo.binary main_v17 main_v23 main_v27 (mulf : (⟨S6400000, .f32⟩ : BufTy).Contents (Elt F) → (⟨S6400000, .f32⟩ : BufTy).Contents (Elt F) → (⟨S6400000, .f32⟩ : BufTy).Contents (Elt F)),
    StableHlo.binary main_v19 main_v21 main_v28 (mulf : (⟨S6400000, .f32⟩ : BufTy).Contents (Elt F) → (⟨S6400000, .f32⟩ : BufTy).Contents (Elt F) → (⟨S6400000, .f32⟩ : BufTy).Contents (Elt F)),
    StableHlo.binary main_v27 main_v28 main_v29 (addf : (⟨S6400000, .f32⟩ : BufTy).Contents (Elt F) → (⟨S6400000, .f32⟩ : BufTy).Contents (Elt F) → (⟨S6400000, .f32⟩ : BufTy).Contents (Elt F)),
    StableHlo.unary main_v26 main_v30 (broadcastInDim S6400000x1 ![0] bcast_S6400000_S6400000x1_0 : (⟨S6400000, .f32⟩ : BufTy).Contents (Elt F) → (⟨S6400000x1, .f32⟩ : BufTy).Contents (Elt F)),
    StableHlo.unary main_v29 main_v31 (broadcastInDim S6400000x1 ![0] bcast_S6400000_S6400000x1_0 : (⟨S6400000, .f32⟩ : BufTy).Contents (Elt F) → (⟨S6400000x1, .f32⟩ : BufTy).Contents (Elt F)),
    StableHlo.binary main_v30 main_v31 main_v32 ((fun a b => concatenate S6400000x2 1 [⟨S6400000x1, a⟩, ⟨S6400000x1, b⟩] concatenates_S6400000x1_S6400000x1_S6400000x2_d1) : (⟨S6400000x1, .f32⟩ : BufTy).Contents (Elt F) → (⟨S6400000x1, .f32⟩ : BufTy).Contents (Elt F) → (⟨S6400000x2, .f32⟩ : BufTy).Contents (Elt F)) ]

/-- Up to the launch: the fused scatter, the weight slices, the bias row. -/
abbrev k3 : List (HloOp τ sig (Elt F)) :=
  [ StableHlo.binary main_arg2 main_arg1 main_v33 ((fun a b => concatenate S12800000 0 [⟨S6400000, a⟩, ⟨S6400000, b⟩] concatenates_S6400000_S6400000_S12800000_d0) : (⟨S6400000, .i32⟩ : BufTy).Contents (Elt F) → (⟨S6400000, .i32⟩ : BufTy).Contents (Elt F) → (⟨S12800000, .i32⟩ : BufTy).Contents (Elt F)),
    StableHlo.unary main_v32 main_v34 (Host.negf : (⟨S6400000x2, .f32⟩ : BufTy).Contents (Elt F) → (⟨S6400000x2, .f32⟩ : BufTy).Contents (Elt F)),
    StableHlo.binary main_v32 main_v34 main_v35 ((fun a b => concatenate S12800000x2 0 [⟨S6400000x2, a⟩, ⟨S6400000x2, b⟩] concatenates_S6400000x2_S6400000x2_S12800000x2_d0) : (⟨S6400000x2, .f32⟩ : BufTy).Contents (Elt F) → (⟨S6400000x2, .f32⟩ : BufTy).Contents (Elt F) → (⟨S12800000x2, .f32⟩ : BufTy).Contents (Elt F)),
    StableHlo.nullary main_cst (constant S_ .f32 0x00000000#32),
    StableHlo.unary main_cst main_v36 (broadcastInDim S100000x2 ![] bcast_S_S100000x2 : (⟨S_, .f32⟩ : BufTy).Contents (Elt F) → (⟨S100000x2, .f32⟩ : BufTy).Contents (Elt F)),
    StableHlo.unary main_v33 main_v37 (broadcastInDim S12800000x1 ![0] bcast_S12800000_S12800000x1_0 : (⟨S12800000, .i32⟩ : BufTy).Contents (Elt F) → (⟨S12800000x1, .i32⟩ : BufTy).Contents (Elt F)),
    StableHlo.ternary main_v36 main_v37 main_v35 main_v38 ((fun x i u => Host.scatterAdd scatter_S100000x2_S12800000x1_S12800000x2_1_0_0_1 x i u) : (⟨S100000x2, .f32⟩ : BufTy).Contents (Elt F) → (⟨S12800000x1, .i32⟩ : BufTy).Contents (Elt F) → (⟨S12800000x2, .f32⟩ : BufTy).Contents (Elt F) → (⟨S100000x2, .f32⟩ : BufTy).Contents (Elt F)),
    StableHlo.unary main_arg4 main_v39 ((extractStridedSlice S128x128 ![0, 0] · slices_S130x128_S128x128_0_0) : (⟨S130x128, .f32⟩ : BufTy).Contents (Elt F) → (⟨S128x128, .f32⟩ : BufTy).Contents (Elt F)),
    StableHlo.unary main_arg4 main_v40 ((extractStridedSlice S2x128 ![128, 0] · slices_S130x128_S2x128_128_0) : (⟨S130x128, .f32⟩ : BufTy).Contents (Elt F) → (⟨S2x128, .f32⟩ : BufTy).Contents (Elt F)),
    StableHlo.reshape main_arg5 main_v41 rfl shapeCasts_S128_S1x128 ]

set_option maxRecDepth 8192 in
theorem hostOps0_split : (hostOps0 : List (HloOp τ sig (Elt F))) = k1 ++ (k2 ++ k3) := rfl

/-- Running one list of operations after another. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The stretches' values -/

/-- A row of per-edge values as a one-column array. -/
def asCol {α : Type} (x : S6400000.Idx → α) : S6400000x1.Idx → α :=
  broadcastInDim S6400000x1 ![0] bcast_S6400000_S6400000x1_0 x

/-- Node indices as start indices of a row gather: an index below zero has the node count added. -/
def startCol (x : (⟨S6400000, .i32⟩ : BufTy).Contents (Elt F)) : (⟨S6400000x1, .i32⟩ : BufTy).Contents (Elt F) :=
  asCol (select (cmpi .slt x (broadcastInDim S6400000 ![] bcast_S_S6400000 (constantI S_ 32 0#32)))
    (addi x (broadcastInDim S6400000 ![] bcast_S_S6400000 (constantI S_ 32 100000#32))) x)

/-- The first two feature columns of the nodes an index array names. -/
def rowsAt (x0 : (⟨S100000x128, .f32⟩ : BufTy).Contents (Elt F)) (ix : (⟨S6400000, .i32⟩ : BufTy).Contents (Elt F)) : (⟨S6400000x2, .f32⟩ : BufTy).Contents (Elt F) :=
  Host.gather gather_S100000x2_S6400000x1_S6400000x2_1_0_n_n_0_1_12
    (extractStridedSlice S100000x2 ![0, 0] x0 slices_S100000x128_S100000x2_0_0) (startCol ix)

/-- The edge voltages: receiver's minus sender's. -/
def vEdge (x0 : (⟨S100000x128, .f32⟩ : BufTy).Contents (Elt F)) (snd rcv : (⟨S6400000, .i32⟩ : BufTy).Contents (Elt F)) : (⟨S6400000x2, .f32⟩ : BufTy).Contents (Elt F) :=
  subf (rowsAt x0 rcv) (rowsAt x0 snd)

/-- Column 0, and column 1, of a two-column per-edge array. -/
def col0 (x : (⟨S6400000x2, .f32⟩ : BufTy).Contents (Elt F)) : (⟨S6400000, .f32⟩ : BufTy).Contents (Elt F) :=
  shapeCast S6400000 (extractStridedSlice S6400000x1 ![0, 0] x slices_S6400000x2_S6400000x1_0_0) shapeCasts_S6400000x1_S6400000
def col1 (x : (⟨S6400000x2, .f32⟩ : BufTy).Contents (Elt F)) : (⟨S6400000, .f32⟩ : BufTy).Contents (Elt F) :=
  shapeCast S6400000 (extractStridedSlice S6400000x1 ![0, 1] x slices_S6400000x2_S6400000x1_0_1) shapeCasts_S6400000x1_S6400000

/-- The edge currents: the complex product of the admittance (G, B) and the voltage, as (real, imaginary). -/
def iEdge (ef ve : (⟨S6400000x2, .f32⟩ : BufTy).Contents (Elt F)) : (⟨S6400000x2, .f32⟩ : BufTy).Contents (Elt F) :=
  concatenate S6400000x2 1
    [⟨S6400000x1, asCol (subf (mulf (col0 ef) (col0 ve)) (mulf (col1 ef) (col1 ve)))⟩,
     ⟨S6400000x1, asCol (addf (mulf (col0 ef) (col1 ve)) (mulf (col1 ef) (col0 ve)))⟩]
    concatenates_S6400000x1_S6400000x1_S6400000x2_d1

/-- The per-node accumulator before any current is added. -/
def zeros2 : (⟨S100000x2, .f32⟩ : BufTy).Contents (Elt F) :=
  broadcastInDim S100000x2 ![] bcast_S_S100000x2 (constant S_ .f32 0x00000000#32)

/-- The receivers followed by the senders, as a column of scatter indices. -/
def bothCol (snd rcv : (⟨S6400000, .i32⟩ : BufTy).Contents (Elt F)) : (⟨S12800000x1, .i32⟩ : BufTy).Contents (Elt F) :=
  broadcastInDim S12800000x1 ![0] bcast_S12800000_S12800000x1_0
    (concatenate S12800000 0 [⟨S6400000, rcv⟩, ⟨S6400000, snd⟩] concatenates_S6400000_S6400000_S12800000_d0)

/-- The currents followed by their negatives. -/
def bothCur (cur : (⟨S6400000x2, .f32⟩ : BufTy).Contents (Elt F)) : (⟨S12800000x2, .f32⟩ : BufTy).Contents (Elt F) :=
  concatenate S12800000x2 0 [⟨S6400000x2, cur⟩, ⟨S6400000x2, Host.negf cur⟩] concatenates_S6400000x2_S6400000x2_S12800000x2_d0

/-- The net current into each node by one scatter. -/
def fusedCurrent (snd rcv : (⟨S6400000, .i32⟩ : BufTy).Contents (Elt F)) (cur : (⟨S6400000x2, .f32⟩ : BufTy).Contents (Elt F)) : (⟨S100000x2, .f32⟩ : BufTy).Contents (Elt F) :=
  Host.scatterAdd scatter_S100000x2_S12800000x1_S12800000x2_1_0_0_1 zeros2 (bothCol snd rcv) (bothCur cur)

/-- The weights' first 128 rows, their last 2 rows, and the bias as one row. -/
def wTop (x4 : (⟨S130x128, .f32⟩ : BufTy).Contents (Elt F)) : (⟨S128x128, .f32⟩ : BufTy).Contents (Elt F) := extractStridedSlice S128x128 ![0, 0] x4 slices_S130x128_S128x128_0_0
def wBot (x4 : (⟨S130x128, .f32⟩ : BufTy).Contents (Elt F)) : (⟨S2x128, .f32⟩ : BufTy).Contents (Elt F) := extractStridedSlice S2x128 ![128, 0] x4 slices_S130x128_S2x128_128_0
def biasRow (x5 : (⟨S128, .f32⟩ : BufTy).Contents (Elt F)) : (⟨S1x128, .f32⟩ : BufTy).Contents (Elt F) := shapeCast S1x128 x5 shapeCasts_S128_S1x128

/-! ## Each stretch over any state before it -/

set_option maxHeartbeats 1600000 in
theorem seg1_vEdge (W : Valuation τ sig (Elt F)) :
    after k1 W (Proc.devRef .tc main_v15) = vEdge (W (Proc.devRef .tc main_arg0)) (W (Proc.devRef .tc main_arg1)) (W (Proc.devRef .tc main_arg2)) := by
  after_results
  rfl

set_option maxHeartbeats 1600000 in
theorem seg2_iEdge (W : Valuation τ sig (Elt F)) :
    after k2 W (Proc.devRef .tc main_v32) = iEdge (W (Proc.devRef .tc main_arg3)) (W (Proc.devRef .tc main_v15)) := by
  after_results
  rfl

set_option maxHeartbeats 1600000 in
theorem seg3_cur (W : Valuation τ sig (Elt F)) :
    after k3 W (Proc.devRef .tc main_v38) = fusedCurrent (W (Proc.devRef .tc main_arg1)) (W (Proc.devRef .tc main_arg2)) (W (Proc.devRef .tc main_v32)) := by
  after_results
  rfl

set_option maxHeartbeats 1600000 in
theorem seg3_wTop (W : Valuation τ sig (Elt F)) : after k3 W (Proc.devRef .tc main_v39) = wTop (W (Proc.devRef .tc main_arg4)) := by
  after_results
  rfl

set_option maxHeartbeats 1600000 in
theorem seg3_wBot (W : Valuation τ sig (Elt F)) : after k3 W (Proc.devRef .tc main_v40) = wBot (W (Proc.devRef .tc main_arg4)) := by
  after_results
  rfl

set_option maxHeartbeats 1600000 in
theorem seg3_bias (W : Valuation τ sig (Elt F)) : after k3 W (Proc.devRef .tc main_v41) = biasRow (W (Proc.devRef .tc main_arg5)) := by
  after_results
  rfl

/-! ## What each stretch leaves alone -/

theorem keep1_arg0 (W : Valuation τ sig (Elt F)) :
    after k1 W (Proc.devRef .tc main_arg0) = W (Proc.devRef .tc main_arg0) := by
  after_results
theorem keep1_arg1 (W : Valuation τ sig (Elt F)) :
    after k1 W (Proc.devRef .tc main_arg1) = W (Proc.devRef .tc main_arg1) := by
  after_results
theorem keep1_arg2 (W : Valuation τ sig (Elt F)) :
    after k1 W (Proc.devRef .tc main_arg2) = W (Proc.devRef .tc main_arg2) := by
  after_results
theorem keep1_arg3 (W : Valuation τ sig (Elt F)) :
    after k1 W (Proc.devRef .tc main_arg3) = W (Proc.devRef .tc main_arg3) := by
  after_results
theorem keep1_arg4 (W : Valuation τ sig (Elt F)) :
    after k1 W (Proc.devRef .tc main_arg4) = W (Proc.devRef .tc main_arg4) := by
  after_results
theorem keep1_arg5 (W : Valuation τ sig (Elt F)) :
    after k1 W (Proc.devRef .tc main_arg5) = W (Proc.devRef .tc main_arg5) := by
  after_results

theorem keep2_arg0 (W : Valuation τ sig (Elt F)) :
    after k2 W (Proc.devRef .tc main_arg0) = W (Proc.devRef .tc main_arg0) := by
  after_results
theorem keep2_arg1 (W : Valuation τ sig (Elt F)) :
    after k2 W (Proc.devRef .tc main_arg1) = W (Proc.devRef .tc main_arg1) := by
  after_results
theorem keep2_arg2 (W : Valuation τ sig (Elt F)) :
    after k2 W (Proc.devRef .tc main_arg2) = W (Proc.devRef .tc main_arg2) := by
  after_results
theorem keep2_arg3 (W : Valuation τ sig (Elt F)) :
    after k2 W (Proc.devRef .tc main_arg3) = W (Proc.devRef .tc main_arg3) := by
  after_results
theorem keep2_arg4 (W : Valuation τ sig (Elt F)) :
    after k2 W (Proc.devRef .tc main_arg4) = W (Proc.devRef .tc main_arg4) := by
  after_results
theorem keep2_arg5 (W : Valuation τ sig (Elt F)) :
    after k2 W (Proc.devRef .tc main_arg5) = W (Proc.devRef .tc main_arg5) := by
  after_results
theorem keep2_v15 (W : Valuation τ sig (Elt F)) :
    after k2 W (Proc.devRef .tc main_v15) = W (Proc.devRef .tc main_v15) := by
  after_results

theorem keep3_v15 (W : Valuation τ sig (Elt F)) :
    after k3 W (Proc.devRef .tc main_v15) = W (Proc.devRef .tc main_v15) := by
  after_results
theorem keep3_v32 (W : Valuation τ sig (Elt F)) :
    after k3 W (Proc.devRef .tc main_v32) = W (Proc.devRef .tc main_v32) := by
  after_results

/-! ## The buffers as the launch finds them -/

variable (m : (ℓ : Loc nD τ sig) → Buf (Elt F) ℓ)

/-- The edge voltages. -/
theorem V_vEdge (c : Dev nD) : V m c main_v15 = vEdge (m ((c : Thread nD τ).loc main_arg0)) (m ((c : Thread nD τ).loc main_arg1)) (m ((c : Thread nD τ).loc main_arg2)) := by
  show after hostOps0 (fun b => m (c, b)) (Proc.devRef .tc main_v15) = _
  rw [hostOps0_split, after_append, after_append, keep3_v15, keep2_v15, seg1_vEdge]

/-- The edge currents. -/
theorem V_iEdge (c : Dev nD) : V m c main_v32 = iEdge (m ((c : Thread nD τ).loc main_arg3)) (vEdge (m ((c : Thread nD τ).loc main_arg0)) (m ((c : Thread nD τ).loc main_arg1)) (m ((c : Thread nD τ).loc main_arg2))) := by
  show after hostOps0 (fun b => m (c, b)) (Proc.devRef .tc main_v32) = _
  rw [hostOps0_split, after_append, after_append, keep3_v32, seg2_iEdge, seg1_vEdge, keep1_arg3]

/-- The net current, by the one scatter. -/
theorem V_cur (c : Dev nD) :
    V m c main_v38 = fusedCurrent (m ((c : Thread nD τ).loc main_arg1)) (m ((c : Thread nD τ).loc main_arg2)) (iEdge (m ((c : Thread nD τ).loc main_arg3)) (vEdge (m ((c : Thread nD τ).loc main_arg0)) (m ((c : Thread nD τ).loc main_arg1)) (m ((c : Thread nD τ).loc main_arg2)))) := by
  show after hostOps0 (fun b => m (c, b)) (Proc.devRef .tc main_v38) = _
  rw [hostOps0_split, after_append, after_append, seg3_cur, seg2_iEdge, seg1_vEdge,
    keep2_arg1, keep2_arg2, keep1_arg1, keep1_arg2, keep1_arg3]

theorem V_wTop (c : Dev nD) : V m c main_v39 = wTop (m ((c : Thread nD τ).loc main_arg4)) := by
  show after hostOps0 (fun b => m (c, b)) (Proc.devRef .tc main_v39) = _
  rw [hostOps0_split, after_append, after_append, seg3_wTop, keep2_arg4, keep1_arg4]

theorem V_wBot (c : Dev nD) : V m c main_v40 = wBot (m ((c : Thread nD τ).loc main_arg4)) := by
  show after hostOps0 (fun b => m (c, b)) (Proc.devRef .tc main_v40) = _
  rw [hostOps0_split, after_append, after_append, seg3_wBot, keep2_arg4, keep1_arg4]

theorem V_bias (c : Dev nD) : V m c main_v41 = biasRow (m ((c : Thread nD τ).loc main_arg5)) := by
  show after hostOps0 (fun b => m (c, b)) (Proc.devRef .tc main_v41) = _
  rw [hostOps0_split, after_append, after_append, seg3_bias, keep2_arg5, keep1_arg5]

end Cert.KernelIdeal.Hand

end
-- ==== Proof.DenseSpec.lean ====
/-
  The dense layer with a rectified output, as one function of its arrays; and the two facts about sums that
  the two programs' arrangements of it rest on.

  out[n, j] = max( Σ_{k<128} V[n,k]·W[k,j]  +  Σ_{k<2} c[n,k]·W[128+k,j]  +  b[j] ,  0 )

  One program forms the two partial products and adds them; the other joins V and c into rows of length 130
  and takes one product with W. A sum over 130 terms is the sum over its first 128 plus the sum over its last
  two: associativity and commutativity of addition only, so this holds for extended reals with no finiteness
  assumption.

  Also here: a plain M×K by K×P matrix product read at an entry is the sum over k of l[p,k]·r[k,q].
-/
import Idealize.ShloMosaic.PureOps.Ideal
import Idealize.ShloMosaic.PureOps.Ideal.Laws
import Idealize.ShloMosaic.Lib.ValueIdx

noncomputable section

open scoped BigOperators

namespace Cert.DenseSpec

open Idealize.ShloMosaic Idealize.ShloMosaic.ValueIdx Finset

/-! ## A plain matrix product at an entry -/

/-- The dimension numbers of M×K by K×P: contract the left operand's columns with the right operand's rows. -/
abbrev mmDims (M K P : Nat)
    (wf : DotDims.WF ⟨2, ![M, K]⟩ ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

section Product
variable {M K P : Nat} (wf : DotDims.WF ⟨2, ![M, K]⟩ ⟨2, ![K, P]⟩ ⟨2, ![M, P]⟩ [1] [0] [0] [1] [] [])

theorem lhs_row (p : Fin M) (q : Fin P) (k : (mmDims M K P wf).contr.Idx) :
    ((mmDims M K P wf).lhsIdx (ix2 p q) k 0).val = p.val := by
  unfold DotDims.lhsIdx
  have h1 : ¬ (0 : Fin 2) ∈ (mmDims M K P wf).lhsBatch := List.not_mem_nil
  have h2 : (0 : Fin 2) ∈ (mmDims M K P wf).lhsNonContracting := List.mem_singleton.mpr rfl
  rw [dif_neg h1, dif_pos h2]
  rfl

theorem rhs_col (p : Fin M) (q : Fin P) (k : (mmDims M K P wf).contr.Idx) :
    ((mmDims M K P wf).rhsIdx (ix2 p q) k 1).val = q.val := by
  unfold DotDims.rhsIdx
  have h1 : ¬ (1 : Fin 2) ∈ (mmDims M K P wf).rhsBatch := List.not_mem_nil
  have h2 : (1 : Fin 2) ∈ (mmDims M K P wf).rhsNonContracting := List.mem_singleton.mpr rfl
  rw [dif_neg h1, dif_pos h2]
  rfl

/-- THE PRODUCT AT (p, q): the contraction's sum is the sum over k of l[p,k]·r[k,q]. -/
theorem sum_contr (l : (⟨2, ![M, K]⟩ : Shape).Idx → EReal) (r : (⟨2, ![K, P]⟩ : Shape).Idx → EReal) (p : Fin M) (q : Fin P) :
    ∑ k : (mmDims M K P wf).contr.Idx, l ((mmDims M K P wf).lhsIdx (ix2 p q) k) * r ((mmDims M K P wf).rhsIdx (ix2 p q) k)
      = ∑ k : Fin K, l (ix2 p k) * r (ix2 k q) := by
  rw [← Equiv.sum_comp (contrEquiv1 (mmDims M K P wf) K rfl rfl).symm]
  refine Finset.sum_congr rfl fun k _ => ?_
  have hk := contrEquiv1_symm_val (mmDims M K P wf) K rfl rfl k
  have el : (mmDims M K P wf).lhsIdx (ix2 p q) ((contrEquiv1 (mmDims M K P wf) K rfl rfl).symm k) = ix2 p k :=
    funext fun a => Fin.ext (by
      match a with
      | ⟨0, _⟩ => exact lhs_row wf p q _
      | ⟨1, _⟩ => exact ((mmDims M K P wf).lhsIdx_val_of_single rfl _ _).trans hk)
  have er : (mmDims M K P wf).rhsIdx (ix2 p q) ((contrEquiv1 (mmDims M K P wf) K rfl rfl).symm k) = ix2 k q :=
    funext fun a => Fin.ext (by
      match a with
      | ⟨0, _⟩ => exact ((mmDims M K P wf).rhsIdx_val_of_single rfl _ _).trans hk
      | ⟨1, _⟩ => exact rhs_col wf p q _)
  rw [el, er]

end Product

/-! ## 130 = 128 + 2 -/

/-- The first 128 of 130 positions. -/
abbrev lo (k : Fin 128) : Fin 130 := ⟨k.val, by omega⟩
/-- The last 2 of 130 positions. -/
abbrev hi (k : Fin 2) : Fin 130 := ⟨128 + k.val, by omega⟩

/-- A sum over 130 terms is the sum over the first 128 plus the sum over the last two. -/
theorem sum_split {A : Type} [AddCommMonoid A] (f : Fin 130 → A) :
    ∑ k, f k = ∑ k : Fin 128, f (lo k) + ∑ k : Fin 2, f (hi k) :=
  Fin.sum_univ_add (a := 128) (b := 2) f

/-! ## The layer -/

/-- The dense layer with a rectified output: node features V (100000 × 128), net currents c (100000 × 2),
    weights W (130 × 128) and bias b (128). -/
def dense (V : (⟨2, ![100000, 128]⟩ : Shape).Idx → EReal) (c : (⟨2, ![100000, 2]⟩ : Shape).Idx → EReal)
    (W : (⟨2, ![130, 128]⟩ : Shape).Idx → EReal) (b : (⟨1, ![128]⟩ : Shape).Idx → EReal) :
    (⟨2, ![100000, 128]⟩ : Shape).Idx → EReal := fun i =>
  max (((∑ k : Fin 128, V (ix2 (i 0) k) * W (ix2 (lo k) (i 1))) + ∑ k : Fin 2, c (ix2 (i 0) k) * W (ix2 (hi k) (i 1)))
    + b (ix1 (i 1))) 0

theorem dense_apply (V : (⟨2, ![100000, 128]⟩ : Shape).Idx → EReal) (c : (⟨2, ![100000, 2]⟩ : Shape).Idx → EReal)
    (W : (⟨2, ![130, 128]⟩ : Shape).Idx → EReal) (b : (⟨1, ![128]⟩ : Shape).Idx → EReal) (n : Fin 100000) (j : Fin 128) :
    dense V c W b (ix2 n j)
      = max (((∑ k : Fin 128, V (ix2 n k) * W (ix2 (lo k) j)) + ∑ k : Fin 2, c (ix2 n k) * W (ix2 (hi k) j)) + b (ix1 j)) 0 := rfl

end Cert.DenseSpec

end
-- ==== Proof.KernelValue.lean ====
/-
  What the launched dense layer leaves in its output array, over the extended reals.

  The grid has 20 points; point t works on rows 5000·t … 5000·t + 4999. Its body loads the point's 5000 × 128
  block of node features and 5000 × 2 block of net currents, the whole 128 × 128 and 2 × 128 weight pieces and
  the 1 × 128 bias row, and stores
      max( V·W_top + c·W_bot + bias , 0 ).
  Entry (p, q) of that block is therefore the specification's dense layer at row 5000·t + p and column q: the
  weight pieces are rows 0…127 and 128…129 of the weight matrix, the bias row is the bias. The 20 blocks tile
  the 100000 rows (row r lies in block r / 5000), so the whole output array is the specification's layer of the
  node features and the net currents as the launch finds them.
-/
import proofs.«103068_j12678743458331_2_alg».proof.Proof.Gen.KernelIdeal.Value
import proofs.«103068_j12678743458331_2_alg».proof.Proof.KernelHost
import proofs.«103068_j12678743458331_2_alg».proof.Proof.DenseSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KValue

open Cert.KernelIdeal Cert.KernelIdeal.Gen Cert.KernelIdeal.Hand Idealize.ShloMosaic Idealize.ShloMosaic.TcCoe Idealize.SL.Sem
open Idealize.ShloMosaic.ValueIdx Cert.DenseSpec
open Idealize.ShloMosaic.Pipeline (Dat)

/-! ## The body's arithmetic at an entry -/

/-- Entry (p, q) of the stored block: the two partial products at (p, q), plus the bias at q, rectified. -/
theorem pay_apply (x0 : Vec Ideal S5000x128 .f32) (x1 : Vec Ideal S5000x2 .f32) (x2 : Vec Ideal S128x128 .f32)
    (x3 : Vec Ideal S2x128 .f32) (x4 : Vec Ideal S1x128 .f32) (p : Fin 5000) (q : Fin 128) :
    k0_pay1 (F := Ideal) x0 x1 x2 x3 x4 (ix2 p q)
      = max (((∑ k : Fin 128, x0 (ix2 p k) * x2 (ix2 k q)) + ∑ k : Fin 2, x1 (ix2 p k) * x3 (ix2 k q)) + x4 (ix2 (0 : Fin 1) q)) 0 := by
  unfold k0_pay1
  simp only [shapeCast_self]
  rw [maximumf_apply, addf_apply, addf_apply, broadcast_apply]
  refine congrArg₂ max (congrArg₂ (· + ·) (congrArg₂ (· + ·) ?_ ?_) ?_) ?_
  · simp only [matmul]
    rw [Ideal.matmul_constant_zero_apply]
    exact sum_contr dot_S5000x128_S128x128_S5000x128_1_0_0_1_n_n_wf _ _ p q
  · simp only [matmul]
    rw [Ideal.matmul_constant_zero_apply]
    exact sum_contr dot_S5000x2_S2x128_S5000x128_1_0_0_1_n_n_wf _ _ p q
  · exact broadcastTo_apply x4 broadcasts_S1x128_S5000x128 (ix2 p q) (ix2 (0 : Fin 1) q) (fun a => match a with
      | ⟨0, _⟩ => by show (0 : Nat) = if (1 : Nat) = 1 then 0 else _; rw [if_pos rfl]
      | ⟨1, _⟩ => by show q.val = if (128 : Nat) = 1 then 0 else q.val; rw [if_neg (by decide)])
  · show Ideal.ofBits .f32 0x00000000#32 = 0
    exact Ideal.ofBits_zero_f32

/-! ## The windows' blocks -/

variable (m : (ℓ : Loc nD τ sig) → Buf (Elt Ideal) ℓ)

theorem hz : (![0, 0] : Fin 2 → Nat) = fun _ => 0 := funext fun a => by fin_cases a <;> rfl

/-- The printed index maps over the grid: the node features, the net currents and the output move one block of
    rows per point; the weight pieces and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0)

/-- The array row that row p of point t's block is. -/
def rowOf (t : Fin cfg0.N) (p : Fin 5000) : Fin 100000 :=
  ⟨t.val * 5000 + p.val, by have h1 := t.isLt; have hN : cfg0.N = 20 := N_0; have h2 := p.isLt; omega⟩

/-- The node features' block at point t. -/
theorem iblk0_apply (c : Dev nD) (t : Fin cfg0.N) (p : Fin 5000) (k : Fin 128) :
    iblk m c 0 t (ix2 p k) = (m ((c : Thread nD τ).loc main_arg0)) (ix2 (rowOf t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The net current into each node as the launch finds it: the one scatter of the host operations. -/
def netK (c : Dev nD) : S100000x2.Idx → EReal :=
  fusedCurrent (m ((c : Thread nD τ).loc main_arg1)) (m ((c : Thread nD τ).loc main_arg2)) (iEdge (m ((c : Thread nD τ).loc main_arg3)) (vEdge (m ((c : Thread nD τ).loc main_arg0)) (m ((c : Thread nD τ).loc main_arg1)) (m ((c : Thread nD τ).loc main_arg2))))

/-- Window 1's array, as the launch finds it, is the net current. -/
theorem V_net (c : Dev nD) : V m c (Pipeline.arrRef spec0 1) = netK m c := V_cur m c

/-- A block of a 100000 × 2 array at point t: row p of the block is row 5000·t + p of the array. -/
theorem blk1_read (A : S100000x2.Idx → EReal) (t : Fin cfg0.N) (p : Fin 5000) (k : Fin 2) :
    ((cfg0.win 1).blk t).view.read (Elt Ideal) A (ix2 p k) = A (ix2 (rowOf t p) k) := by
  obtain ⟨-, -, e0, e1, -⟩ := idx_facts t
  show A (((cfg0.win 1).blk t).view.emb (ix2 p k)) = _
  refine congrArg A (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 2 + 1 * k.val = k.val; rw [e1]; omega

/-- The net currents' block at point t. -/
theorem iblk1_apply (c : Dev nD) (t : Fin cfg0.N) (p : Fin 5000) (k : Fin 2) :
    iblk m c 1 t (ix2 p k) = netK m c (ix2 (rowOf t p) k) := by
  unfold iblk
  rw [V_net]
  exact blk1_read (netK m c) t p k

/-- The first weight piece is rows 0…127 of the weights. -/
theorem iblk2_apply (c : Dev nD) (t : Fin cfg0.N) (k : Fin 128) (q : Fin 128) :
    iblk m c 2 t (ix2 k q) = (m ((c : Thread nD τ).loc main_arg4)) (ix2 (lo k) q) := by
  obtain ⟨-, -, -, -, e0, e1, -⟩ := idx_facts t
  show V m c main_v39 (((cfg0.win 2).blk t).view.emb (ix2 k q)) = _
  rw [V_wTop]
  unfold wTop
  refine (extractStridedSlice_apply ![0, 0] _ slices_S130x128_S128x128_0_0 _ (ix2 (lo k) q) (fun a => ?_))
  match a with
  | ⟨0, _⟩ => show k.val = 0 + (win0_2.index t (0 : Fin 2) * 128 + 1 * k.val); rw [e0]; omega
  | ⟨1, _⟩ => show q.val = 0 + (win0_2.index t (1 : Fin 2) * 128 + 1 * q.val); rw [e1]; omega

/-- The second weight piece is rows 128, 129 of the weights. -/
theorem iblk3_apply (c : Dev nD) (t : Fin cfg0.N) (k : Fin 2) (q : Fin 128) :
    iblk m c 3 t (ix2 k q) = (m ((c : Thread nD τ).loc main_arg4)) (ix2 (hi k) q) := by
  obtain ⟨-, -, -, -, -, -, e0, e1, -⟩ := idx_facts t
  show V m c main_v40 (((cfg0.win 3).blk t).view.emb (ix2 k q)) = _
  rw [V_wBot]
  unfold wBot
  refine (extractStridedSlice_apply ![128, 0] _ slices_S130x128_S2x128_128_0 _ (ix2 (hi k) q) (fun a => ?_))
  match a with
  | ⟨0, _⟩ => show 128 + k.val = 128 + (win0_3.index t (0 : Fin 2) * 2 + 1 * k.val); rw [e0]; omega
  | ⟨1, _⟩ => show q.val = 0 + (win0_3.index t (1 : Fin 2) * 128 + 1 * q.val); rw [e1]; omega

/-- The bias row is the bias. -/
theorem iblk4_apply (c : Dev nD) (t : Fin cfg0.N) (q : Fin 128) :
    iblk m c 4 t (ix2 (0 : Fin 1) q) = (m ((c : Thread nD τ).loc main_arg5)) (ix1 q) := by
  obtain ⟨-, -, -, -, -, -, -, -, e0, e1, -⟩ := idx_facts t
  show V m c main_v41 (((cfg0.win 4).blk t).view.emb (ix2 (0 : Fin 1) q)) = _
  rw [V_bias]
  unfold biasRow
  refine shapeCast_apply _ shapeCasts_S128_S1x128 _ (ix1 q) ?_
  rewrite [Shape.rowMajor_val_two, Shape.rowMajor_val_one]
  show q.val = (win0_4.index t (0 : Fin 2) * 1 + 1 * 0) * 128 + (win0_4.index t (1 : Fin 2) * 128 + 1 * q.val)
  rw [e0, e1]; omega

/-! ## What a point writes back, and the whole array -/

/-- The layer of the arrays as the launch finds them. -/
abbrev layer (c : Dev nD) : S100000x128.Idx → EReal :=
  dense (m ((c : Thread nD τ).loc main_arg0)) (netK m c) (m ((c : Thread nD τ).loc main_arg4)) (m ((c : Thread nD τ).loc main_arg5))

/-- Point t writes back block t of the layer. -/
theorem flushed_eq (c : Dev nD) (t : Fin cfg0.N) :
    (dats m 0 c).flushed 5 t = ((cfg0.win 5).blk t).view.read (Elt Ideal) (layer m c) := by
  rw [Value.flushed5]
  unfold out0_5
  rw [View.canon_unit_zero hz]
  simp only [View.ld_unit_zero (S := S5000x128) hz, View.ld_unit_zero (S := S5000x2) hz, View.ld_unit_zero (S := S128x128) hz,
    View.ld_unit_zero (S := S2x128) hz, View.ld_unit_zero (S := S1x128) hz]
  obtain ⟨-, -, -, -, -, -, -, -, -, -, e0, e1⟩ := idx_facts t
  funext j
  obtain ⟨p, q, rfl⟩ : ∃ (p : Fin 5000) (q : Fin 128), j = ix2 p q := ⟨j 0, j 1, eq_ix2 j⟩
  show k0_pay1 (iblk m c 0 t) (iblk m c 1 t) (iblk m c 2 t) (iblk m c 3 t) (iblk m c 4 t) (ix2 p q)
    = layer m c (((cfg0.win 5).blk t).view.emb (ix2 p q))
  have hemb : ((cfg0.win 5).blk t).view.emb (ix2 p q) = ix2 (rowOf t p) q := by
    funext a; apply Fin.ext
    match a with
    | ⟨0, _⟩ => show win0_5.index t (0 : Fin 2) * 5000 + 1 * p.val = t.val * 5000 + p.val; rw [e0]; omega
    | ⟨1, _⟩ => show win0_5.index t (1 : Fin 2) * 128 + 1 * q.val = q.val; rw [e1]; omega
  rw [hemb]
  refine (pay_apply _ _ _ _ _ p q).trans ?_
  unfold layer
  rw [dense_apply]
  simp only [iblk0_apply, iblk1_apply, iblk2_apply, iblk3_apply, iblk4_apply]

/-- An index of the output array is in point t's block when its coordinates are in the block's ranges. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v42).slice (win0_5.rect t)).set ↔ _
  rw [View.set_slice_whole, Rect.mem_set_unit]
  exact Iff.rfl

/-- THE OUTPUT ARRAY after the run: the layer. Row r lies in the block of point r / 5000. -/
theorem final (c : Dev nD) : (dats m 0 c).arrAt 5 cfg0.N = layer m c :=
  (dats m 0 c).arrAt_eq_of_cover 5 (layer m c) (fun t _ => flushed_eq m c t) fun i => by
    have hN : cfg0.N = 20 := N_0
    have hi0 : (i 0).val < 100000 := (i 0).isLt
    have hi1 : (i 1).val < 128 := (i 1).isLt
    refine ⟨⟨(i 0).val / 5000, by rw [hN]; omega⟩, flush0_5 _, ?_⟩
    rw [mem_blk]
    obtain ⟨-, -, -, -, -, -, -, -, -, -, e0, e1⟩ := idx_facts ⟨(i 0).val / 5000, by rw [hN]; omega⟩
    intro a
    match a with
    | ⟨0, _⟩ =>
      show win0_5.index ⟨(i 0).val / 5000, _⟩ (0 : Fin 2) * 5000 ≤ (i 0).val
        ∧ (i 0).val < win0_5.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win0_5.index ⟨(i 0).val / 5000, _⟩ (1 : Fin 2) * 128 ≤ (i 1).val
        ∧ (i 1).val < win0_5.index ⟨(i 0).val / 5000, _⟩ (1 : Fin 2) * 128 + 128
      rw [e1]; omega

end Cert.KernelIdeal.KValue

end
-- ==== Proof.RefRun.lean ====
/-
  The reference program's run, read in three stretches.

  The reference is a straight line of 54 host operations. Its values form a graph, not a tree: the edge
  voltages V_edge feed four slices, and the edge currents I_edge feed both scatters. So the run is read in three
  stretches, each over an arbitrary state of the buffers before it:
    1. from the arguments to V_edge = V2[receivers] − V2[senders] (indices below zero wrapped by the node count);
    2. from V_edge and the edge features (G, B) to I_edge = (G·V_re − B·V_im, G·V_im + B·V_re);
    3. from I_edge to the output: the net current into each node (currents scattered by receiver minus currents
       scattered by sender), joined to the node features, times the weights, plus the bias, rectified.
  Each stretch writes none of the buffers a later stretch reads besides the ones named, so the three compose.
-/
import proofs.«103068_j12678743458331_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's 54 operations, in order (the rectifier's three operations stand in its call's place). -/
abbrev ops : List (HloOp τ sig (Elt F)) :=
  [ unary main_arg0 main_v0 ((extractStridedSlice S100000x2 ![0, 0] · slices_S100000x128_S100000x2_0_0) : (⟨S100000x128, .f32⟩ : BufTy).Contents (Elt F) → (⟨S100000x2, .f32⟩ : BufTy).Contents (Elt F)),
    nullary main_c (constantI S_ 32 0#32),
    unary main_c main_v1 (broadcastInDim S6400000 ![] bcast_S_S6400000 : (⟨S_, .i32⟩ : BufTy).Contents (Elt F) → (⟨S6400000, .i32⟩ : BufTy).Contents (Elt F)),
    binary main_arg2 main_v1 main_v2 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 100000#32),
    unary main_c_0 main_v3 (broadcastInDim S6400000 ![] bcast_S_S6400000 : (⟨S_, .i32⟩ : BufTy).Contents (Elt F) → (⟨S6400000, .i32⟩ : BufTy).Contents (Elt F)),
    binary main_arg2 main_v3 main_v4 (addi : (⟨S6400000, .i32⟩ : BufTy).Contents (Elt F) → (⟨S6400000, .i32⟩ : BufTy).Contents (Elt F) → (⟨S6400000, .i32⟩ : BufTy).Contents (Elt F)),
    ternary main_v2 main_v4 main_arg2 main_v5 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v5 main_v6 (broadcastInDim S6400000x1 ![0] bcast_S6400000_S6400000x1_0 : (⟨S6400000, .i32⟩ : BufTy).Contents (Elt F) → (⟨S6400000x1, .i32⟩ : BufTy).Contents (Elt F)),
    binary main_v0 main_v6 main_v7 ((fun x i => Host.gather gather_S100000x2_S6400000x1_S6400000x2_1_0_n_n_0_1_12 x i) : (⟨S100000x2, .f32⟩ : BufTy).Contents (Elt F) → (⟨S6400000x1, .i32⟩ : BufTy).Contents (Elt F) → (⟨S6400000x2, .f32⟩ : BufTy).Contents (Elt F)),
    nullary main_c_1 (constantI S_ 32 0#32),
    unary main_c_1 main_v8 (broadcastInDim S6400000 ![] bcast_S_S6400000 : (⟨S_, .i32⟩ : BufTy).Contents (Elt F) → (⟨S6400000, .i32⟩ : BufTy).Contents (Elt F)),
    binary main_arg1 main_v8 main_v9 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 100000#32),
    unary main_c_2 main_v10 (broadcastInDim S6400000 ![] bcast_S_S6400000 : (⟨S_, .i32⟩ : BufTy).Contents (Elt F) → (⟨S6400000, .i32⟩ : BufTy).Contents (Elt F)),
    binary main_arg1 main_v10 main_v11 (addi : (⟨S6400000, .i32⟩ : BufTy).Contents (Elt F) → (⟨S6400000, .i32⟩ : BufTy).Contents (Elt F) → (⟨S6400000, .i32⟩ : BufTy).Contents (Elt F)),
    ternary main_v9 main_v11 main_arg1 main_v12 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v12 main_v13 (broadcastInDim S6400000x1 ![0] bcast_S6400000_S6400000x1_0 : (⟨S6400000, .i32⟩ : BufTy).Contents (Elt F) → (⟨S6400000x1, .i32⟩ : BufTy).Contents (Elt F)),
    binary main_v0 main_v13 main_v14 ((fun x i => Host.gather gather_S100000x2_S6400000x1_S6400000x2_1_0_n_n_0_1_12 x i) : (⟨S100000x2, .f32⟩ : BufTy).Contents (Elt F) → (⟨S6400000x1, .i32⟩ : BufTy).Contents (Elt F) → (⟨S6400000x2, .f32⟩ : BufTy).Contents (Elt F)),
    binary main_v7 main_v14 main_v15 (subf : (⟨S6400000x2, .f32⟩ : BufTy).Contents (Elt F) → (⟨S6400000x2, .f32⟩ : BufTy).Contents (Elt F) → (⟨S6400000x2, .f32⟩ : BufTy).Contents (Elt F)),
    unary main_arg3 main_v16 ((extractStridedSlice S6400000x1 ![0, 0] · slices_S6400000x2_S6400000x1_0_0) : (⟨S6400000x2, .f32⟩ : BufTy).Contents (Elt F) → (⟨S6400000x1, .f32⟩ : BufTy).Contents (Elt F)),
    reshape main_v16 main_v17 rfl shapeCasts_S6400000x1_S6400000,
    unary main_arg3 main_v18 ((extractStridedSlice S6400000x1 ![0, 1] · slices_S6400000x2_S6400000x1_0_1) : (⟨S6400000x2, .f32⟩ : BufTy).Contents (Elt F) → (⟨S6400000x1, .f32⟩ : BufTy).Contents (Elt F)),
    reshape main_v18 main_v19 rfl shapeCasts_S6400000x1_S6400000,
    unary main_v15 main_v20 ((extractStridedSlice S6400000x1 ![0, 0] · slices_S6400000x2_S6400000x1_0_0) : (⟨S6400000x2, .f32⟩ : BufTy).Contents (Elt F) → (⟨S6400000x1, .f32⟩ : BufTy).Contents (Elt F)),
    reshape main_v20 main_v21 rfl shapeCasts_S6400000x1_S6400000,
    unary main_v15 main_v22 ((extractStridedSlice S6400000x1 ![0, 1] · slices_S6400000x2_S6400000x1_0_1) : (⟨S6400000x2, .f32⟩ : BufTy).Contents (Elt F) → (⟨S6400000x1, .f32⟩ : BufTy).Contents (Elt F)),
    reshape main_v22 main_v23 rfl shapeCasts_S6400000x1_S6400000,
    binary main_v17 main_v21 main_v24 (mulf : (⟨S6400000, .f32⟩ : BufTy).Contents (Elt F) → (⟨S6400000, .f32⟩ : BufTy).Contents (Elt F) → (⟨S6400000, .f32⟩ : BufTy).Contents (Elt F)),
    binary main_v19 main_v23 main_v25 (mulf : (⟨S6400000, .f32⟩ : BufTy).Contents (Elt F) → (⟨S6400000, .f32⟩ : BufTy).Contents (Elt F) → (⟨S6400000, .f32⟩ : BufTy).Contents (Elt F)),
    binary main_v24 main_v25 main_v26 (subf : (⟨S6400000, .f32⟩ : BufTy).Contents (Elt F) → (⟨S6400000, .f32⟩ : BufTy).Contents (Elt F) → (⟨S6400000, .f32⟩ : BufTy).Contents (Elt F)),
    binary main_v17 main_v23 main_v27 (mulf : (⟨S6400000, .f32⟩ : BufTy).Contents (Elt F) → (⟨S6400000, .f32⟩ : BufTy).Contents (Elt F) → (⟨S6400000, .f32⟩ : BufTy).Contents (Elt F)),
    binary main_v19 main_v21 main_v28 (mulf : (⟨S6400000, .f32⟩ : BufTy).Contents (Elt F) → (⟨S6400000, .f32⟩ : BufTy).Contents (Elt F) → (⟨S6400000, .f32⟩ : BufTy).Contents (Elt F)),
    binary main_v27 main_v28 main_v29 (addf : (⟨S6400000, .f32⟩ : BufTy).Contents (Elt F) → (⟨S6400000, .f32⟩ : BufTy).Contents (Elt F) → (⟨S6400000, .f32⟩ : BufTy).Contents (Elt F)),
    unary main_v26 main_v30 (broadcastInDim S6400000x1 ![0] bcast_S6400000_S6400000x1_0 : (⟨S6400000, .f32⟩ : BufTy).Contents (Elt F) → (⟨S6400000x1, .f32⟩ : BufTy).Contents (Elt F)),
    unary main_v29 main_v31 (broadcastInDim S6400000x1 ![0] bcast_S6400000_S6400000x1_0 : (⟨S6400000, .f32⟩ : BufTy).Contents (Elt F) → (⟨S6400000x1, .f32⟩ : BufTy).Contents (Elt F)),
    binary main_v30 main_v31 main_v32 ((fun a b => concatenate S6400000x2 1 [⟨S6400000x1, a⟩, ⟨S6400000x1, b⟩] concatenates_S6400000x1_S6400000x1_S6400000x2_d1) : (⟨S6400000x1, .f32⟩ : BufTy).Contents (Elt F) → (⟨S6400000x1, .f32⟩ : BufTy).Contents (Elt F) → (⟨S6400000x2, .f32⟩ : BufTy).Contents (Elt F)),
    nullary main_cst (constant S_ .f32 0x00000000#32),
    unary main_cst main_v33 (broadcastInDim S100000x2 ![] bcast_S_S100000x2 : (⟨S_, .f32⟩ : BufTy).Contents (Elt F) → (⟨S100000x2, .f32⟩ : BufTy).Contents (Elt F)),
    unary main_arg2 main_v34 (broadcastInDim S6400000x1 ![0] bcast_S6400000_S6400000x1_0 : (⟨S6400000, .i32⟩ : BufTy).Contents (Elt F) → (⟨S6400000x1, .i32⟩ : BufTy).Contents (Elt F)),
    ternary main_v33 main_v34 main_v32 main_v35 ((fun x i u => Host.scatterAdd scatter_S100000x2_S6400000x1_S6400000x2_1_0_0_1 x i u) : (⟨S100000x2, .f32⟩ : BufTy).Contents (Elt F) → (⟨S6400000x1, .i32⟩ : BufTy).Contents (Elt F) → (⟨S6400000x2, .f32⟩ : BufTy).Contents (Elt F) → (⟨S100000x2, .f32⟩ : BufTy).Contents (Elt F)),
    nullary main_cst_3 (constant S_ .f32 0x00000000#32),
    unary main_cst_3 main_v36 (broadcastInDim S100000x2 ![] bcast_S_S100000x2 : (⟨S_, .f32⟩ : BufTy).Contents (Elt F) → (⟨S100000x2, .f32⟩ : BufTy).Contents (Elt F)),
    unary main_arg1 main_v37 (broadcastInDim S6400000x1 ![0] bcast_S6400000_S6400000x1_0 : (⟨S6400000, .i32⟩ : BufTy).Contents (Elt F) → (⟨S6400000x1, .i32⟩ : BufTy).Contents (Elt F)),
    ternary main_v36 main_v37 main_v32 main_v38 ((fun x i u => Host.scatterAdd scatter_S100000x2_S6400000x1_S6400000x2_1_0_0_1 x i u) : (⟨S100000x2, .f32⟩ : BufTy).Contents (Elt F) → (⟨S6400000x1, .i32⟩ : BufTy).Contents (Elt F) → (⟨S6400000x2, .f32⟩ : BufTy).Contents (Elt F) → (⟨S100000x2, .f32⟩ : BufTy).Contents (Elt F)),
    binary main_v35 main_v38 main_v39 (subf : (⟨S100000x2, .f32⟩ : BufTy).Contents (Elt F) → (⟨S100000x2, .f32⟩ : BufTy).Contents (Elt F) → (⟨S100000x2, .f32⟩ : BufTy).Contents (Elt F)),
    binary main_arg0 main_v39 main_v40 ((fun a b => concatenate S100000x130 1 [⟨S100000x128, a⟩, ⟨S100000x2, b⟩] concatenates_S100000x128_S100000x2_S100000x130_d1) : (⟨S100000x128, .f32⟩ : BufTy).Contents (Elt F) → (⟨S100000x2, .f32⟩ : BufTy).Contents (Elt F) → (⟨S100000x130, .f32⟩ : BufTy).Contents (Elt F)),
    binary main_v40 main_arg4 main_v41 ((fun l r => Host.dotGeneral dot_S100000x130_S130x128_S100000x128_1_0_0_1_n_n none l r) : (⟨S100000x130, .f32⟩ : BufTy).Contents (Elt F) → (⟨S130x128, .f32⟩ : BufTy).Contents (Elt F) → (⟨S100000x128, .f32⟩ : BufTy).Contents (Elt F)),
    unary main_arg5 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v41 main_v43 main_v44 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v44) (TRef.of (T := ⟨S100000x128, .f32⟩) main_call0_v0) (TRef.of (T := ⟨S100000x128, .f32⟩) main_v45) maximumf ]

/-- The first stretch: up to the edge voltages. -/
abbrev ops1 : List (HloOp τ sig (Elt F)) :=
  [ unary main_arg0 main_v0 ((extractStridedSlice S100000x2 ![0, 0] · slices_S100000x128_S100000x2_0_0) : (⟨S100000x128, .f32⟩ : BufTy).Contents (Elt F) → (⟨S100000x2, .f32⟩ : BufTy).Contents (Elt F)),
    nullary main_c (constantI S_ 32 0#32),
    unary main_c main_v1 (broadcastInDim S6400000 ![] bcast_S_S6400000 : (⟨S_, .i32⟩ : BufTy).Contents (Elt F) → (⟨S6400000, .i32⟩ : BufTy).Contents (Elt F)),
    binary main_arg2 main_v1 main_v2 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 100000#32),
    unary main_c_0 main_v3 (broadcastInDim S6400000 ![] bcast_S_S6400000 : (⟨S_, .i32⟩ : BufTy).Contents (Elt F) → (⟨S6400000, .i32⟩ : BufTy).Contents (Elt F)),
    binary main_arg2 main_v3 main_v4 (addi : (⟨S6400000, .i32⟩ : BufTy).Contents (Elt F) → (⟨S6400000, .i32⟩ : BufTy).Contents (Elt F) → (⟨S6400000, .i32⟩ : BufTy).Contents (Elt F)),
    ternary main_v2 main_v4 main_arg2 main_v5 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v5 main_v6 (broadcastInDim S6400000x1 ![0] bcast_S6400000_S6400000x1_0 : (⟨S6400000, .i32⟩ : BufTy).Contents (Elt F) → (⟨S6400000x1, .i32⟩ : BufTy).Contents (Elt F)),
    binary main_v0 main_v6 main_v7 ((fun x i => Host.gather gather_S100000x2_S6400000x1_S6400000x2_1_0_n_n_0_1_12 x i) : (⟨S100000x2, .f32⟩ : BufTy).Contents (Elt F) → (⟨S6400000x1, .i32⟩ : BufTy).Contents (Elt F) → (⟨S6400000x2, .f32⟩ : BufTy).Contents (Elt F)),
    nullary main_c_1 (constantI S_ 32 0#32),
    unary main_c_1 main_v8 (broadcastInDim S6400000 ![] bcast_S_S6400000 : (⟨S_, .i32⟩ : BufTy).Contents (Elt F) → (⟨S6400000, .i32⟩ : BufTy).Contents (Elt F)),
    binary main_arg1 main_v8 main_v9 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 100000#32),
    unary main_c_2 main_v10 (broadcastInDim S6400000 ![] bcast_S_S6400000 : (⟨S_, .i32⟩ : BufTy).Contents (Elt F) → (⟨S6400000, .i32⟩ : BufTy).Contents (Elt F)),
    binary main_arg1 main_v10 main_v11 (addi : (⟨S6400000, .i32⟩ : BufTy).Contents (Elt F) → (⟨S6400000, .i32⟩ : BufTy).Contents (Elt F) → (⟨S6400000, .i32⟩ : BufTy).Contents (Elt F)),
    ternary main_v9 main_v11 main_arg1 main_v12 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v12 main_v13 (broadcastInDim S6400000x1 ![0] bcast_S6400000_S6400000x1_0 : (⟨S6400000, .i32⟩ : BufTy).Contents (Elt F) → (⟨S6400000x1, .i32⟩ : BufTy).Contents (Elt F)),
    binary main_v0 main_v13 main_v14 ((fun x i => Host.gather gather_S100000x2_S6400000x1_S6400000x2_1_0_n_n_0_1_12 x i) : (⟨S100000x2, .f32⟩ : BufTy).Contents (Elt F) → (⟨S6400000x1, .i32⟩ : BufTy).Contents (Elt F) → (⟨S6400000x2, .f32⟩ : BufTy).Contents (Elt F)),
    binary main_v7 main_v14 main_v15 (subf : (⟨S6400000x2, .f32⟩ : BufTy).Contents (Elt F) → (⟨S6400000x2, .f32⟩ : BufTy).Contents (Elt F) → (⟨S6400000x2, .f32⟩ : BufTy).Contents (Elt F)) ]

/-- The second stretch: up to the edge currents. -/
abbrev ops2 : List (HloOp τ sig (Elt F)) :=
  [ unary main_arg3 main_v16 ((extractStridedSlice S6400000x1 ![0, 0] · slices_S6400000x2_S6400000x1_0_0) : (⟨S6400000x2, .f32⟩ : BufTy).Contents (Elt F) → (⟨S6400000x1, .f32⟩ : BufTy).Contents (Elt F)),
    reshape main_v16 main_v17 rfl shapeCasts_S6400000x1_S6400000,
    unary main_arg3 main_v18 ((extractStridedSlice S6400000x1 ![0, 1] · slices_S6400000x2_S6400000x1_0_1) : (⟨S6400000x2, .f32⟩ : BufTy).Contents (Elt F) → (⟨S6400000x1, .f32⟩ : BufTy).Contents (Elt F)),
    reshape main_v18 main_v19 rfl shapeCasts_S6400000x1_S6400000,
    unary main_v15 main_v20 ((extractStridedSlice S6400000x1 ![0, 0] · slices_S6400000x2_S6400000x1_0_0) : (⟨S6400000x2, .f32⟩ : BufTy).Contents (Elt F) → (⟨S6400000x1, .f32⟩ : BufTy).Contents (Elt F)),
    reshape main_v20 main_v21 rfl shapeCasts_S6400000x1_S6400000,
    unary main_v15 main_v22 ((extractStridedSlice S6400000x1 ![0, 1] · slices_S6400000x2_S6400000x1_0_1) : (⟨S6400000x2, .f32⟩ : BufTy).Contents (Elt F) → (⟨S6400000x1, .f32⟩ : BufTy).Contents (Elt F)),
    reshape main_v22 main_v23 rfl shapeCasts_S6400000x1_S6400000,
    binary main_v17 main_v21 main_v24 (mulf : (⟨S6400000, .f32⟩ : BufTy).Contents (Elt F) → (⟨S6400000, .f32⟩ : BufTy).Contents (Elt F) → (⟨S6400000, .f32⟩ : BufTy).Contents (Elt F)),
    binary main_v19 main_v23 main_v25 (mulf : (⟨S6400000, .f32⟩ : BufTy).Contents (Elt F) → (⟨S6400000, .f32⟩ : BufTy).Contents (Elt F) → (⟨S6400000, .f32⟩ : BufTy).Contents (Elt F)),
    binary main_v24 main_v25 main_v26 (subf : (⟨S6400000, .f32⟩ : BufTy).Contents (Elt F) → (⟨S6400000, .f32⟩ : BufTy).Contents (Elt F) → (⟨S6400000, .f32⟩ : BufTy).Contents (Elt F)),
    binary main_v17 main_v23 main_v27 (mulf : (⟨S6400000, .f32⟩ : BufTy).Contents (Elt F) → (⟨S6400000, .f32⟩ : BufTy).Contents (Elt F) → (⟨S6400000, .f32⟩ : BufTy).Contents (Elt F)),
    binary main_v19 main_v21 main_v28 (mulf : (⟨S6400000, .f32⟩ : BufTy).Contents (Elt F) → (⟨S6400000, .f32⟩ : BufTy).Contents (Elt F) → (⟨S6400000, .f32⟩ : BufTy).Contents (Elt F)),
    binary main_v27 main_v28 main_v29 (addf : (⟨S6400000, .f32⟩ : BufTy).Contents (Elt F) → (⟨S6400000, .f32⟩ : BufTy).Contents (Elt F) → (⟨S6400000, .f32⟩ : BufTy).Contents (Elt F)),
    unary main_v26 main_v30 (broadcastInDim S6400000x1 ![0] bcast_S6400000_S6400000x1_0 : (⟨S6400000, .f32⟩ : BufTy).Contents (Elt F) → (⟨S6400000x1, .f32⟩ : BufTy).Contents (Elt F)),
    unary main_v29 main_v31 (broadcastInDim S6400000x1 ![0] bcast_S6400000_S6400000x1_0 : (⟨S6400000, .f32⟩ : BufTy).Contents (Elt F) → (⟨S6400000x1, .f32⟩ : BufTy).Contents (Elt F)),
    binary main_v30 main_v31 main_v32 ((fun a b => concatenate S6400000x2 1 [⟨S6400000x1, a⟩, ⟨S6400000x1, b⟩] concatenates_S6400000x1_S6400000x1_S6400000x2_d1) : (⟨S6400000x1, .f32⟩ : BufTy).Contents (Elt F) → (⟨S6400000x1, .f32⟩ : BufTy).Contents (Elt F) → (⟨S6400000x2, .f32⟩ : BufTy).Contents (Elt F)) ]

/-- The third stretch: up to the output. -/
abbrev ops3 : List (HloOp τ sig (Elt F)) :=
  [ nullary main_cst (constant S_ .f32 0x00000000#32),
    unary main_cst main_v33 (broadcastInDim S100000x2 ![] bcast_S_S100000x2 : (⟨S_, .f32⟩ : BufTy).Contents (Elt F) → (⟨S100000x2, .f32⟩ : BufTy).Contents (Elt F)),
    unary main_arg2 main_v34 (broadcastInDim S6400000x1 ![0] bcast_S6400000_S6400000x1_0 : (⟨S6400000, .i32⟩ : BufTy).Contents (Elt F) → (⟨S6400000x1, .i32⟩ : BufTy).Contents (Elt F)),
    ternary main_v33 main_v34 main_v32 main_v35 ((fun x i u => Host.scatterAdd scatter_S100000x2_S6400000x1_S6400000x2_1_0_0_1 x i u) : (⟨S100000x2, .f32⟩ : BufTy).Contents (Elt F) → (⟨S6400000x1, .i32⟩ : BufTy).Contents (Elt F) → (⟨S6400000x2, .f32⟩ : BufTy).Contents (Elt F) → (⟨S100000x2, .f32⟩ : BufTy).Contents (Elt F)),
    nullary main_cst_3 (constant S_ .f32 0x00000000#32),
    unary main_cst_3 main_v36 (broadcastInDim S100000x2 ![] bcast_S_S100000x2 : (⟨S_, .f32⟩ : BufTy).Contents (Elt F) → (⟨S100000x2, .f32⟩ : BufTy).Contents (Elt F)),
    unary main_arg1 main_v37 (broadcastInDim S6400000x1 ![0] bcast_S6400000_S6400000x1_0 : (⟨S6400000, .i32⟩ : BufTy).Contents (Elt F) → (⟨S6400000x1, .i32⟩ : BufTy).Contents (Elt F)),
    ternary main_v36 main_v37 main_v32 main_v38 ((fun x i u => Host.scatterAdd scatter_S100000x2_S6400000x1_S6400000x2_1_0_0_1 x i u) : (⟨S100000x2, .f32⟩ : BufTy).Contents (Elt F) → (⟨S6400000x1, .i32⟩ : BufTy).Contents (Elt F) → (⟨S6400000x2, .f32⟩ : BufTy).Contents (Elt F) → (⟨S100000x2, .f32⟩ : BufTy).Contents (Elt F)),
    binary main_v35 main_v38 main_v39 (subf : (⟨S100000x2, .f32⟩ : BufTy).Contents (Elt F) → (⟨S100000x2, .f32⟩ : BufTy).Contents (Elt F) → (⟨S100000x2, .f32⟩ : BufTy).Contents (Elt F)),
    binary main_arg0 main_v39 main_v40 ((fun a b => concatenate S100000x130 1 [⟨S100000x128, a⟩, ⟨S100000x2, b⟩] concatenates_S100000x128_S100000x2_S100000x130_d1) : (⟨S100000x128, .f32⟩ : BufTy).Contents (Elt F) → (⟨S100000x2, .f32⟩ : BufTy).Contents (Elt F) → (⟨S100000x130, .f32⟩ : BufTy).Contents (Elt F)),
    binary main_v40 main_arg4 main_v41 ((fun l r => Host.dotGeneral dot_S100000x130_S130x128_S100000x128_1_0_0_1_n_n none l r) : (⟨S100000x130, .f32⟩ : BufTy).Contents (Elt F) → (⟨S130x128, .f32⟩ : BufTy).Contents (Elt F) → (⟨S100000x128, .f32⟩ : BufTy).Contents (Elt F)),
    unary main_arg5 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v41 main_v43 main_v44 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v44) (TRef.of (T := ⟨S100000x128, .f32⟩) main_call0_v0) (TRef.of (T := ⟨S100000x128, .f32⟩) main_v45) maximumf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., unary_bufs_sub .., binary_bufs_sub ..⟩

set_option maxRecDepth 8192 in
theorem ops_split : (ops : List (HloOp τ sig (Elt F))) = ops1 ++ (ops2 ++ ops3) := rfl

/-- Running one list of operations after another. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The three stretches' values -/

/-- A row of per-edge values as a one-column array. -/
def asCol {α : Type} (x : S6400000.Idx → α) : S6400000x1.Idx → α :=
  broadcastInDim S6400000x1 ![0] bcast_S6400000_S6400000x1_0 x

/-- Node indices as start indices of a row gather: an index below zero has the node count added. -/
def startCol (x : (⟨S6400000, .i32⟩ : BufTy).Contents (Elt F)) : (⟨S6400000x1, .i32⟩ : BufTy).Contents (Elt F) :=
  asCol (select (cmpi .slt x (broadcastInDim S6400000 ![] bcast_S_S6400000 (constantI S_ 32 0#32)))
    (addi x (broadcastInDim S6400000 ![] bcast_S_S6400000 (constantI S_ 32 100000#32))) x)

/-- The first two feature columns of the nodes an index array names. -/
def rowsAt (x0 : (⟨S100000x128, .f32⟩ : BufTy).Contents (Elt F)) (ix : (⟨S6400000, .i32⟩ : BufTy).Contents (Elt F)) : (⟨S6400000x2, .f32⟩ : BufTy).Contents (Elt F) :=
  Host.gather gather_S100000x2_S6400000x1_S6400000x2_1_0_n_n_0_1_12
    (extractStridedSlice S100000x2 ![0, 0] x0 slices_S100000x128_S100000x2_0_0) (startCol ix)

/-- The edge voltages: receiver's minus sender's. -/
def vEdge (x0 : (⟨S100000x128, .f32⟩ : BufTy).Contents (Elt F)) (snd rcv : (⟨S6400000, .i32⟩ : BufTy).Contents (Elt F)) : (⟨S6400000x2, .f32⟩ : BufTy).Contents (Elt F) :=
  subf (rowsAt x0 rcv) (rowsAt x0 snd)

/-- Column 0, and column 1, of a two-column per-edge array. -/
def col0 (x : (⟨S6400000x2, .f32⟩ : BufTy).Contents (Elt F)) : (⟨S6400000, .f32⟩ : BufTy).Contents (Elt F) :=
  shapeCast S6400000 (extractStridedSlice S6400000x1 ![0, 0] x slices_S6400000x2_S6400000x1_0_0) shapeCasts_S6400000x1_S6400000
def col1 (x : (⟨S6400000x2, .f32⟩ : BufTy).Contents (Elt F)) : (⟨S6400000, .f32⟩ : BufTy).Contents (Elt F) :=
  shapeCast S6400000 (extractStridedSlice S6400000x1 ![0, 1] x slices_S6400000x2_S6400000x1_0_1) shapeCasts_S6400000x1_S6400000

/-- The edge currents: the complex product of the admittance (G, B) and the voltage, as (real, imaginary). -/
def iEdge (ef ve : (⟨S6400000x2, .f32⟩ : BufTy).Contents (Elt F)) : (⟨S6400000x2, .f32⟩ : BufTy).Contents (Elt F) :=
  concatenate S6400000x2 1
    [⟨S6400000x1, asCol (subf (mulf (col0 ef) (col0 ve)) (mulf (col1 ef) (col1 ve)))⟩,
     ⟨S6400000x1, asCol (addf (mulf (col0 ef) (col1 ve)) (mulf (col1 ef) (col0 ve)))⟩]
    concatenates_S6400000x1_S6400000x1_S6400000x2_d1

/-- The per-node accumulator before any current is added. -/
def zeros2 : (⟨S100000x2, .f32⟩ : BufTy).Contents (Elt F) :=
  broadcastInDim S100000x2 ![] bcast_S_S100000x2 (constant S_ .f32 0x00000000#32)

/-- The currents added into the node each edge's index names. -/
def scatterBy (ix : (⟨S6400000, .i32⟩ : BufTy).Contents (Elt F)) (cur : (⟨S6400000x2, .f32⟩ : BufTy).Contents (Elt F)) : (⟨S100000x2, .f32⟩ : BufTy).Contents (Elt F) :=
  Host.scatterAdd scatter_S100000x2_S6400000x1_S6400000x2_1_0_0_1 zeros2 (asCol ix) cur

/-- The net current into each node: in by receiver, out by sender. -/
def netCurrent (snd rcv : (⟨S6400000, .i32⟩ : BufTy).Contents (Elt F)) (cur : (⟨S6400000x2, .f32⟩ : BufTy).Contents (Elt F)) : (⟨S100000x2, .f32⟩ : BufTy).Contents (Elt F) :=
  subf (scatterBy rcv cur) (scatterBy snd cur)

/-- The dense layer on the joined rows, rectified. -/
def outRef (x0 : (⟨S100000x128, .f32⟩ : BufTy).Contents (Elt F)) (nc : (⟨S100000x2, .f32⟩ : BufTy).Contents (Elt F)) (x4 : (⟨S130x128, .f32⟩ : BufTy).Contents (Elt F)) (x5 : (⟨S128, .f32⟩ : BufTy).Contents (Elt F)) :
    (⟨S100000x128, .f32⟩ : BufTy).Contents (Elt F) :=
  maximumf
    (addf
      (Host.dotGeneral dot_S100000x130_S130x128_S100000x128_1_0_0_1_n_n none
        (concatenate S100000x130 1 [⟨S100000x128, x0⟩, ⟨S100000x2, nc⟩] concatenates_S100000x128_S100000x2_S100000x130_d1) x4)
      (broadcastInDim S100000x128 ![0, 1] bcast_S1x128_S100000x128_0_1 (broadcastInDim S1x128 ![1] bcast_S128_S1x128_1 x5)))
    (broadcastInDim S100000x128 ![] bcast_S_S100000x128 (constant S_ .f32 0x00000000#32))

/-! ## Each stretch over any state before it -/

theorem seg1_vEdge (W : Valuation τ sig (Elt F)) :
    after ops1 W (Proc.devRef .tc main_v15) = vEdge (W (Proc.devRef .tc main_arg0)) (W (Proc.devRef .tc main_arg1)) (W (Proc.devRef .tc main_arg2)) := by
  after_results
  rfl

theorem seg2_iEdge (W : Valuation τ sig (Elt F)) :
    after ops2 W (Proc.devRef .tc main_v32) = iEdge (W (Proc.devRef .tc main_arg3)) (W (Proc.devRef .tc main_v15)) := by
  after_results
  rfl

theorem seg3_out (W : Valuation τ sig (Elt F)) :
    after ops3 W (Proc.devRef .tc main_v45)
      = outRef (W (Proc.devRef .tc main_arg0)) (netCurrent (W (Proc.devRef .tc main_arg1)) (W (Proc.devRef .tc main_arg2)) (W (Proc.devRef .tc main_v32))) (W (Proc.devRef .tc main_arg4)) (W (Proc.devRef .tc main_arg5)) := by
  after_results
  rfl

/-! ## What each stretch leaves alone -/

theorem keep1_arg0 (W : Valuation τ sig (Elt F)) :
    after ops1 W (Proc.devRef .tc main_arg0) = W (Proc.devRef .tc main_arg0) := by
  after_results
theorem keep1_arg1 (W : Valuation τ sig (Elt F)) :
    after ops1 W (Proc.devRef .tc main_arg1) = W (Proc.devRef .tc main_arg1) := by
  after_results
theorem keep1_arg2 (W : Valuation τ sig (Elt F)) :
    after ops1 W (Proc.devRef .tc main_arg2) = W (Proc.devRef .tc main_arg2) := by
  after_results
theorem keep1_arg3 (W : Valuation τ sig (Elt F)) :
    after ops1 W (Proc.devRef .tc main_arg3) = W (Proc.devRef .tc main_arg3) := by
  after_results
theorem keep1_arg4 (W : Valuation τ sig (Elt F)) :
    after ops1 W (Proc.devRef .tc main_arg4) = W (Proc.devRef .tc main_arg4) := by
  after_results
theorem keep1_arg5 (W : Valuation τ sig (Elt F)) :
    after ops1 W (Proc.devRef .tc main_arg5) = W (Proc.devRef .tc main_arg5) := by
  after_results

theorem keep2_arg0 (W : Valuation τ sig (Elt F)) :
    after ops2 W (Proc.devRef .tc main_arg0) = W (Proc.devRef .tc main_arg0) := by
  after_results
theorem keep2_arg1 (W : Valuation τ sig (Elt F)) :
    after ops2 W (Proc.devRef .tc main_arg1) = W (Proc.devRef .tc main_arg1) := by
  after_results
theorem keep2_arg2 (W : Valuation τ sig (Elt F)) :
    after ops2 W (Proc.devRef .tc main_arg2) = W (Proc.devRef .tc main_arg2) := by
  after_results
theorem keep2_arg3 (W : Valuation τ sig (Elt F)) :
    after ops2 W (Proc.devRef .tc main_arg3) = W (Proc.devRef .tc main_arg3) := by
  after_results
theorem keep2_arg4 (W : Valuation τ sig (Elt F)) :
    after ops2 W (Proc.devRef .tc main_arg4) = W (Proc.devRef .tc main_arg4) := by
  after_results
theorem keep2_arg5 (W : Valuation τ sig (Elt F)) :
    after ops2 W (Proc.devRef .tc main_arg5) = W (Proc.devRef .tc main_arg5) := by
  after_results
theorem keep2_v15 (W : Valuation τ sig (Elt F)) :
    after ops2 W (Proc.devRef .tc main_v15) = W (Proc.devRef .tc main_v15) := by
  after_results

theorem keep3_arg0 (W : Valuation τ sig (Elt F)) :
    after ops3 W (Proc.devRef .tc main_arg0) = W (Proc.devRef .tc main_arg0) := by
  after_results
theorem keep3_arg1 (W : Valuation τ sig (Elt F)) :
    after ops3 W (Proc.devRef .tc main_arg1) = W (Proc.devRef .tc main_arg1) := by
  after_results
theorem keep3_arg2 (W : Valuation τ sig (Elt F)) :
    after ops3 W (Proc.devRef .tc main_arg2) = W (Proc.devRef .tc main_arg2) := by
  after_results
theorem keep3_arg3 (W : Valuation τ sig (Elt F)) :
    after ops3 W (Proc.devRef .tc main_arg3) = W (Proc.devRef .tc main_arg3) := by
  after_results
theorem keep3_arg4 (W : Valuation τ sig (Elt F)) :
    after ops3 W (Proc.devRef .tc main_arg4) = W (Proc.devRef .tc main_arg4) := by
  after_results
theorem keep3_arg5 (W : Valuation τ sig (Elt F)) :
    after ops3 W (Proc.devRef .tc main_arg5) = W (Proc.devRef .tc main_arg5) := by
  after_results
theorem keep3_v15 (W : Valuation τ sig (Elt F)) :
    after ops3 W (Proc.devRef .tc main_v15) = W (Proc.devRef .tc main_v15) := by
  after_results
theorem keep3_v32 (W : Valuation τ sig (Elt F)) :
    after ops3 W (Proc.devRef .tc main_v32) = W (Proc.devRef .tc main_v32) := by
  after_results

/-! ## The whole line -/

theorem eval_arg (V : Valuation τ sig (Elt F)) :
    after ops V (Proc.devRef .tc main_arg0) = V (Proc.devRef .tc main_arg0) ∧ after ops V (Proc.devRef .tc main_arg1) = V (Proc.devRef .tc main_arg1)
    ∧ after ops V (Proc.devRef .tc main_arg2) = V (Proc.devRef .tc main_arg2) ∧ after ops V (Proc.devRef .tc main_arg3) = V (Proc.devRef .tc main_arg3)
    ∧ after ops V (Proc.devRef .tc main_arg4) = V (Proc.devRef .tc main_arg4) ∧ after ops V (Proc.devRef .tc main_arg5) = V (Proc.devRef .tc main_arg5) := by
  rw [ops_split, after_append, after_append,
    keep3_arg0, keep3_arg1, keep3_arg2, keep3_arg3, keep3_arg4, keep3_arg5,
    keep2_arg0, keep2_arg1, keep2_arg2, keep2_arg3, keep2_arg4, keep2_arg5,
    keep1_arg0, keep1_arg1, keep1_arg2, keep1_arg3, keep1_arg4, keep1_arg5]
  exact ⟨rfl, rfl, rfl, rfl, rfl, rfl⟩

theorem eval_vEdge (V : Valuation τ sig (Elt F)) :
    after ops V (Proc.devRef .tc main_v15) = vEdge (V (Proc.devRef .tc main_arg0)) (V (Proc.devRef .tc main_arg1)) (V (Proc.devRef .tc main_arg2)) := by
  rw [ops_split, after_append, after_append, keep3_v15, keep2_v15, seg1_vEdge]

theorem eval_iEdge (V : Valuation τ sig (Elt F)) :
    after ops V (Proc.devRef .tc main_v32) = iEdge (V (Proc.devRef .tc main_arg3)) (vEdge (V (Proc.devRef .tc main_arg0)) (V (Proc.devRef .tc main_arg1)) (V (Proc.devRef .tc main_arg2))) := by
  rw [ops_split, after_append, after_append, keep3_v32, seg2_iEdge, seg1_vEdge, keep1_arg3]

theorem eval_out (V : Valuation τ sig (Elt F)) :
    after ops V (Proc.devRef .tc main_v45)
      = outRef (V (Proc.devRef .tc main_arg0))
          (netCurrent (V (Proc.devRef .tc main_arg1)) (V (Proc.devRef .tc main_arg2)) (iEdge (V (Proc.devRef .tc main_arg3)) (vEdge (V (Proc.devRef .tc main_arg0)) (V (Proc.devRef .tc main_arg1)) (V (Proc.devRef .tc main_arg2)))))
          (V (Proc.devRef .tc main_arg4)) (V (Proc.devRef .tc main_arg5)) := by
  rw [ops_split, after_append, after_append, seg3_out, seg2_iEdge, seg1_vEdge,
    keep2_arg0, keep2_arg1, keep2_arg2, keep2_arg4, keep2_arg5,
    keep1_arg0, keep1_arg1, keep1_arg2, keep1_arg3, keep1_arg4, keep1_arg5]

/-- On every device, from any memory with zero counters: every weakly fair execution of the reference terminates
    with the output, the edge currents and the edge voltages at these functions of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
        = outRef (m ((c.tc : Thread nD τ).loc main_arg0))
            (netCurrent (m ((c.tc : Thread nD τ).loc main_arg1)) (m ((c.tc : Thread nD τ).loc main_arg2))
              (iEdge (m ((c.tc : Thread nD τ).loc main_arg3))
                (vEdge (m ((c.tc : Thread nD τ).loc main_arg0)) (m ((c.tc : Thread nD τ).loc main_arg1)) (m ((c.tc : Thread nD τ).loc main_arg2)))))
            (m ((c.tc : Thread nD τ).loc main_arg4)) (m ((c.tc : Thread nD τ).loc main_arg5))
      ∧ r.2.mem ((c.tc : Thread nD τ).loc main_v32)
        = iEdge (m ((c.tc : Thread nD τ).loc main_arg3))
            (vEdge (m ((c.tc : Thread nD τ).loc main_arg0)) (m ((c.tc : Thread nD τ).loc main_arg1)) (m ((c.tc : Thread nD τ).loc main_arg2)))
      ∧ r.2.mem ((c.tc : Thread nD τ).loc main_v15)
        = vEdge (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v45).trans (eval_out _), (h c main_v32).trans (eval_iEdge _), (h c main_v15).trans (eval_vEdge _),
       (h c main_arg0).trans (eval_arg _).1, (h c main_arg1).trans (eval_arg _).2.1, (h c main_arg2).trans (eval_arg _).2.2.1,
       (h c main_arg3).trans (eval_arg _).2.2.2.1, (h c main_arg4).trans (eval_arg _).2.2.2.2.1, (h c main_arg5).trans (eval_arg _).2.2.2.2.2⟩)
    (run_seq scopedRefs_eq scopedSems_eq defs main (fun _ => ops) main_eq (fun _ => ops_sub) m ρ)

end Cert.ReferenceIdeal.Hand

end
-- ==== Proof.LibRowScatter.lean ====
/-
  A scatter of rows with addition, read at an index; and two such scatters fused into one.

  The operand is an N × C array, the updates an E × C array, and update row e is added into the operand row
  that the e-th scatter index names (read signed, not clamped; a row outside the operand is dropped). Read at
  (n, k), the result is the operand's entry plus the sum of the updates' k-th column over the rows e whose
  index is n.

  Fusing: scattering the 2E rows "u followed by −u" by the indices "r followed by s" gives, at every entry,
  the scatter of u by r MINUS the scatter of u by s — provided the entries of u are real numbers: negation
  does not distribute over a sum of extended reals that contains both infinities.

  General: nothing here mentions a program.
-/
import Idealize.ShloMosaic.PureOps.Ideal
import Idealize.ShloMosaic.Lib.ValueIdx

noncomputable section

open scoped BigOperators

namespace Cert.LibRowScatter

open Idealize.ShloMosaic Idealize.ShloMosaic.ValueIdx Finset

/-! ## Where an update lands, for any dimension numbers -/

/-- An update lands at `i` exactly when, on every operand axis, window start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := congrArg (fun f => (f a).val) hi
      simp only at h1
      have h2 := h a
      omega
    · intro hi
      funext a
      apply Fin.ext
      have h1 := hi a
      simp only
      omega
  · rename_i h
    constructor
    · intro hi; exact absurd hi (by simp)
    · intro hi
      exfalso; apply h
      intro a
      have h1 := hi a
      have h2 := (i a).isLt
      omega

/-! ## Rows -/

/-- The dimension numbers of a scatter of rows: operand N × C, scatter indices E × 1, updates E × C; the
    updates' second axis is the window, the operand's first axis is the one indexed. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)

/-- Where the scatter indices hold update row `e`'s index. -/
abbrev rowAt (e : Fin E) : (⟨2, ![E, 1]⟩ : Shape).Idx := ix2 e (0 : Fin 1)

theorem start_zero (e : Fin E) (k : Fin C) (idx : IVec ⟨2, ![E, 1]⟩ w) :
    (rowDims N C E wf).start (ix2 e k) idx 0 = (idx (rowAt e)).toInt := by
  unfold ScatterDims.start
  rw [dif_pos (show (0 : Fin 2) ∈ (rowDims N C E wf).scatterDimsToOperandDims from List.mem_singleton.mpr rfl)]
  have hsi : (rowDims N C E wf).siIdx (ix2 e k) ⟨List.idxOf (0 : Fin 2) (rowDims N C E wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

theorem start_one (e : Fin E) (k : Fin C) (idx : IVec ⟨2, ![E, 1]⟩ w) :
    (rowDims N C E wf).start (ix2 e k) idx 1 = 0 := by
  unfold ScatterDims.start
  have h : ¬ (1 : Fin 2) ∈ (rowDims N C E wf).scatterDimsToOperandDims :=
    show ¬ (1 : Fin 2) ∈ ([0] : List (Fin 2)) by decide
  rw [dif_neg h]

theorem window_zero (e : Fin E) (k : Fin C) : (rowDims N C E wf).window (ix2 e k) 0 = 0 := by
  unfold ScatterDims.window
  have h : ¬ (0 : Fin 2) ∈ (rowDims N C E wf).sKept :=
    show ¬ (0 : Fin 2) ∈ (List.finRange 2).filter (· ∉ ([0] : List (Fin 2))) by decide
  rw [dif_neg h]

theorem window_one (e : Fin E) (k : Fin C) : (rowDims N C E wf).window (ix2 e k) 1 = k.val := by
  unfold ScatterDims.window
  have h : (1 : Fin 2) ∈ (rowDims N C E wf).sKept :=
    show (1 : Fin 2) ∈ (List.finRange 2).filter (· ∉ ([0] : List (Fin 2))) by decide
  rw [dif_pos h]
  rfl

/-- Update entry (e, k) lands at (n, k') exactly when row e's index is n and the columns agree. -/
theorem resultIdx?_rows (e : Fin E) (k : Fin C) (idx : IVec ⟨2, ![E, 1]⟩ w) (n : Fin N) (k' : Fin C) :
    (rowDims N C E wf).resultIdx? (ix2 e k) idx = some (ix2 n k') ↔ (idx (rowAt e)).toInt = (n.val : Int) ∧ k = k' := by
  rw [resultIdx?_eq_some_iff, Fin.forall_fin_two, start_zero, start_one, window_zero, window_one]
  constructor
  · rintro ⟨h0, h1⟩
    refine ⟨by simpa using h0, Fin.ext ?_⟩
    have : ((k.val : Int)) = ((k'.val : Nat) : Int) := by simpa using h1
    exact_mod_cast this
  · rintro ⟨h0, rfl⟩
    exact ⟨by simpa using h0, by simp⟩

/-- THE SCATTER READ AT (n, k): the operand's entry plus the k-th column of the updates summed over the rows
    whose index is n. -/
theorem hostScatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e ∈ univ.filter (fun e : Fin E => (idx (rowAt e)).toInt = (n.val : Int)), upd (ix2 e k) := by
  unfold Ideal.hostScatterAdd
  congr 1
  rw [Finset.sum_filter, sum_idx2, Finset.sum_filter]
  refine Finset.sum_congr rfl fun e _ => ?_
  simp only [resultIdx?_rows]
  by_cases h : (idx (rowAt e)).toInt = (n.val : Int)
  · simp only [h, true_and, if_true]
    rw [Finset.sum_ite_eq' Finset.univ k (fun c => upd (ix2 e c)), if_pos (Finset.mem_univ k)]
  · simp only [h, false_and, if_false, Finset.sum_const_zero]

end Rows

/-! ## Sums of real numbers among the extended reals -/

/-- The inclusion of the reals carries a finite sum to the sum of the inclusions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Negation distributes over a finite sum of real numbers. -/
theorem sum_neg_coe {ι : Type} (s : Finset ι) (f : ι → ℝ) :
    ∑ i ∈ s, -((f i : ℝ) : EReal) = -∑ i ∈ s, ((f i : ℝ) : EReal) := by
  rw [← coe_sum, ← EReal.coe_neg, ← Finset.sum_neg_distrib, coe_sum]
  simp only [EReal.coe_neg]

/-! ## Two scatters in one -/

/-- THE FUSED SUM. Over 2E rows whose indices are `ρ` then `σ` and whose values are `υ` then `−υ` (`υ` real), the
    rows indexed `n` sum to: the rows of `υ` that `ρ` sends to `n`, minus the rows of `υ` that `σ` sends to `n`. -/
theorem sum_fused {E E2 : Nat} (hE : E2 = E + E) (n : Int) (ρ σ : Fin E → Int) (υ : Fin E → ℝ)
    (ρ2 : Fin E2 → Int) (υ2 : Fin E2 → EReal)
    (hl : ∀ (e : Fin E2) (h : e.val < E), ρ2 e = ρ ⟨e.val, h⟩ ∧ υ2 e = ((υ ⟨e.val, h⟩ : ℝ) : EReal))
    (hr : ∀ (e : Fin E2) (h : E ≤ e.val), ρ2 e = σ ⟨e.val - E, by have := e.isLt; omega⟩
      ∧ υ2 e = -((υ ⟨e.val - E, by have := e.isLt; omega⟩ : ℝ) : EReal)) :
    ∑ e ∈ univ.filter (fun e => ρ2 e = n), υ2 e
      = (∑ e ∈ univ.filter (fun e => ρ e = n), ((υ e : ℝ) : EReal))
        - ∑ e ∈ univ.filter (fun e => σ e = n), ((υ e : ℝ) : EReal) := by
  subst hE
  rw [Finset.sum_filter, Fin.sum_univ_add, sub_eq_add_neg, ← sum_neg_coe, Finset.sum_filter, Finset.sum_filter]
  congr 1
  · refine Finset.sum_congr rfl fun e _ => ?_
    obtain ⟨h1, h2⟩ := hl (Fin.castAdd E e) (by simp)
    rw [h1, h2]
    rfl
  · refine Finset.sum_congr rfl fun e _ => ?_
    obtain ⟨h1, h2⟩ := hr (Fin.natAdd E e) (by simp)
    rw [h1, h2]
    have he : (⟨(Fin.natAdd E e).val - E, by simp⟩ : Fin E) = e := Fin.ext (by simp)
    simp only [he]

end Cert.LibRowScatter

end
-- ==== Proof.RefValue.lean ====
/-
  The reference's three values read entry by entry, over the extended reals.

  · The edge current at edge e is (G·V_re − B·V_im, G·V_im + B·V_re) of that edge's admittance and voltage.
  · Every edge voltage is a difference of two entries of the node features, whichever rows the gathers pick;
    so if the node features and the edge features are real numbers, so are the voltages and the currents.
  · One scatter of the currents, read at node n and column k, is the sum of the k-th column over the edges whose
    index is n.
  · The reference's dense layer on the joined rows is the dense layer of the specification: the 130-term sum
    splits into its first 128 terms (node features) and its last 2 (net currents).
-/
import proofs.«103068_j12678743458331_2_alg».proof.Proof.RefRun
import proofs.«103068_j12678743458331_2_alg».proof.Proof.DenseSpec
import proofs.«103068_j12678743458331_2_alg».proof.Proof.LibRowScatter
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Hand Idealize.ShloMosaic Idealize.ShloMosaic.ValueIdx
open Cert.DenseSpec Cert.LibRowScatter Finset

/-- Every entry is a real number. -/
def AllReal {s : Shape} (x : s.Idx → EReal) : Prop := ∀ i, ∃ r : ℝ, x i = (r : EReal)

/-! ## Layout steps at an entry -/

theorem asCol_apply {α : Type} (x : S6400000.Idx → α) (e : Fin 6400000) : asCol x (ix2 e (0 : Fin 1)) = x (ix1 e) := by
  unfold asCol
  exact broadcastInDim_apply _ bcast_S6400000_S6400000x1_0 x (ix2 e (0 : Fin 1)) (ix1 e) (fun a => match a with
    | ⟨0, _⟩ => by show e.val = if (6400000 : Nat) = 1 then 0 else e.val; rw [if_neg (by decide)])

theorem col0_apply (x : (⟨S6400000x2, .f32⟩ : BufTy).Contents (Elt Ideal)) (e : Fin 6400000) : col0 (F := Ideal) x (ix1 e) = x (ix2 e (0 : Fin 2)) := by
  unfold col0
  refine (shapeCast_apply _ shapeCasts_S6400000x1_S6400000 (ix1 e) (ix2 e (0 : Fin 1))
    (by rewrite [Shape.rowMajor_val_two, Shape.rowMajor_val_one]; show e.val * 1 + 0 = e.val; omega)).trans ?_
  exact extractStridedSlice_apply ![0, 0] x slices_S6400000x2_S6400000x1_0_0 (ix2 e (0 : Fin 1)) (ix2 e (0 : Fin 2)) (fun a => match a with
    | ⟨0, _⟩ => by show e.val = 0 + e.val; omega
    | ⟨1, _⟩ => by show (0 : Nat) = 0 + 0; rfl)

theorem col1_apply (x : (⟨S6400000x2, .f32⟩ : BufTy).Contents (Elt Ideal)) (e : Fin 6400000) : col1 (F := Ideal) x (ix1 e) = x (ix2 e (1 : Fin 2)) := by
  unfold col1
  refine (shapeCast_apply _ shapeCasts_S6400000x1_S6400000 (ix1 e) (ix2 e (0 : Fin 1))
    (by rewrite [Shape.rowMajor_val_two, Shape.rowMajor_val_one]; show e.val * 1 + 0 = e.val; omega)).trans ?_
  exact extractStridedSlice_apply ![0, 1] x slices_S6400000x2_S6400000x1_0_1 (ix2 e (0 : Fin 1)) (ix2 e (1 : Fin 2)) (fun a => match a with
    | ⟨0, _⟩ => by show e.val = 0 + e.val; omega
    | ⟨1, _⟩ => by show (1 : Nat) = 1 + 0; rfl)

/-! ## The edge currents -/

/-- The real part: G·V_re − B·V_im. -/
theorem iEdge_re (ef ve : (⟨S6400000x2, .f32⟩ : BufTy).Contents (Elt Ideal)) (e : Fin 6400000) :
    iEdge (F := Ideal) ef ve (ix2 e (0 : Fin 2))
      = ef (ix2 e (0 : Fin 2)) * ve (ix2 e (0 : Fin 2)) - ef (ix2 e (1 : Fin 2)) * ve (ix2 e (1 : Fin 2)) := by
  unfold iEdge
  rw [concatenate_pair_apply_left 1 _ _ concatenates_S6400000x1_S6400000x1_S6400000x2_d1 (ix2 e (0 : Fin 2)) rfl (ix2 e (0 : Fin 1))
    (fun b => match b with | ⟨0, _⟩ => rfl | ⟨1, _⟩ => rfl)]
  rw [asCol_apply, subf_apply, mulf_apply, mulf_apply, col0_apply, col0_apply, col1_apply, col1_apply]

/-- The imaginary part: G·V_im + B·V_re. -/
theorem iEdge_im (ef ve : (⟨S6400000x2, .f32⟩ : BufTy).Contents (Elt Ideal)) (e : Fin 6400000) :
    iEdge (F := Ideal) ef ve (ix2 e (1 : Fin 2))
      = ef (ix2 e (0 : Fin 2)) * ve (ix2 e (1 : Fin 2)) + ef (ix2 e (1 : Fin 2)) * ve (ix2 e (0 : Fin 2)) := by
  unfold iEdge
  rw [concatenate_pair_apply_right 1 _ _ concatenates_S6400000x1_S6400000x1_S6400000x2_d1 (ix2 e (1 : Fin 2)) rfl rfl (ix2 e (0 : Fin 1))
    (fun b hb => match b with | ⟨0, _⟩ => rfl | ⟨1, _⟩ => absurd rfl hb) (by show (0 : Nat) + 1 = 1; rfl)]
  rw [asCol_apply, addf_apply, mulf_apply, mulf_apply, col0_apply, col1_apply, col1_apply, col0_apply]

/-- Currents of real admittances and real voltages are real. -/
theorem iEdge_real (ef ve : (⟨S6400000x2, .f32⟩ : BufTy).Contents (Elt Ideal)) (hef : AllReal ef) (hve : AllReal ve) :
    AllReal (iEdge (F := Ideal) ef ve) := by
  intro i
  obtain ⟨e, k, rfl⟩ : ∃ (e : Fin 6400000) (k : Fin 2), i = ix2 e k := ⟨i 0, i 1, eq_ix2 i⟩
  obtain ⟨g, hg⟩ := hef (ix2 e (0 : Fin 2))
  obtain ⟨b, hb⟩ := hef (ix2 e (1 : Fin 2))
  obtain ⟨p, hp⟩ := hve (ix2 e (0 : Fin 2))
  obtain ⟨q, hq⟩ := hve (ix2 e (1 : Fin 2))
  match k with
  | ⟨0, _⟩ =>
    refine ⟨g * p - b * q, ?_⟩
    rw [show (⟨0, by omega⟩ : Fin 2) = (0 : Fin 2) from rfl, iEdge_re, hg, hb, hp, hq, EReal.coe_sub, EReal.coe_mul, EReal.coe_mul]
  | ⟨1, _⟩ =>
    refine ⟨g * q + b * p, ?_⟩
    rw [show (⟨1, by omega⟩ : Fin 2) = (1 : Fin 2) from rfl, iEdge_im, hg, hb, hp, hq, EReal.coe_add, EReal.coe_mul, EReal.coe_mul]

/-- Voltages between nodes with real features are real, whichever nodes the indices name. -/
theorem vEdge_real (x0 : (⟨S100000x128, .f32⟩ : BufTy).Contents (Elt Ideal)) (snd rcv : (⟨S6400000, .i32⟩ : BufTy).Contents (Elt Ideal)) (hx : AllReal x0) :
    AllReal (vEdge (F := Ideal) x0 snd rcv) := by
  intro j
  unfold vEdge rowsAt
  rw [subf_apply]
  unfold Host.gather extractStridedSlice
  obtain ⟨a, ha⟩ := hx _
  obtain ⟨b, hb⟩ := hx _
  exact ⟨a - b, by rw [ha, hb, EReal.coe_sub]⟩

/-! ## One scatter at an entry -/

theorem zeros2_apply (i : S100000x2.Idx) : zeros2 (F := Ideal) i = 0 := by
  unfold zeros2
  rw [broadcastInDim_apply _ bcast_S_S100000x2 _ i ix0 (fun a => a.elim0), constant_apply, Ideal.ofBits_zero_f32]

/-- Over the extended reals the host's accumulating scatter is the exact sum. -/
theorem scatterAdd_ideal {s si u : Shape} {w : Nat} (d : ScatterDims s si u) (x : s.Idx → EReal) (idx : IVec si w) (upd : u.Idx → EReal) :
    Host.scatterAdd (F := Ideal) (φ := .f32) d x idx upd = Ideal.hostScatterAdd d x idx upd := rfl

/-- The reference's scatters are scatters of rows. -/
theorem scatter_rows : scatter_S100000x2_S6400000x1_S6400000x2_1_0_0_1
    = rowDims 100000 2 6400000 scatter_S100000x2_S6400000x1_S6400000x2_1_0_0_1_wf := rfl

/-- The currents scattered by an index array, at node n and column k: the k-th column summed over the edges
    whose index is n. -/
theorem scatterBy_apply (ix : (⟨S6400000, .i32⟩ : BufTy).Contents (Elt Ideal)) (cur : (⟨S6400000x2, .f32⟩ : BufTy).Contents (Elt Ideal)) (n : Fin 100000) (k : Fin 2) :
    scatterBy (F := Ideal) ix cur (ix2 n k)
      = ∑ e ∈ univ.filter (fun e : Fin 6400000 => (ix (ix1 e)).toInt = (n.val : Int)), cur (ix2 e k) := by
  unfold scatterBy
  rw [scatterAdd_ideal, scatter_rows, hostScatterAdd_rows_apply, zeros2_apply, zero_add]
  refine Finset.sum_congr ?_ (fun _ _ => rfl)
  ext e
  simp only [mem_filter, mem_univ, true_and]
  rw [show rowAt e = ix2 e (0 : Fin 1) from rfl, asCol_apply]

/-! ## The dense layer -/

/-- The reference's product is a plain 100000 × 130 by 130 × 128 product. -/
theorem dot_rows : dot_S100000x130_S130x128_S100000x128_1_0_0_1_n_n
    = mmDims 100000 130 128 dot_S100000x130_S130x128_S100000x128_1_0_0_1_n_n_wf := rfl

/-- The reference's layer on the joined rows is the layer of the specification. -/
theorem outRef_eq_dense (x0 : (⟨S100000x128, .f32⟩ : BufTy).Contents (Elt Ideal)) (nc : (⟨S100000x2, .f32⟩ : BufTy).Contents (Elt Ideal)) (x4 : (⟨S130x128, .f32⟩ : BufTy).Contents (Elt Ideal)) (x5 : (⟨S128, .f32⟩ : BufTy).Contents (Elt Ideal)) :
    outRef (F := Ideal) x0 nc x4 x5 = dense x0 nc x4 x5 := by
  funext i
  obtain ⟨n, j, rfl⟩ : ∃ (n : Fin 100000) (j : Fin 128), i = ix2 n j := ⟨i 0, i 1, eq_ix2 i⟩
  unfold outRef
  rw [maximumf_apply, addf_apply, dense_apply]
  have hz : broadcastInDim S100000x128 ![] bcast_S_S100000x128 (constant (F := Ideal) S_ .f32 0x00000000#32) (ix2 n j) = 0 := by
    rw [broadcastInDim_apply _ bcast_S_S100000x128 _ _ ix0 (fun a => a.elim0), constant_apply, Ideal.ofBits_zero_f32]
  have hb : broadcastInDim S100000x128 ![0, 1] bcast_S1x128_S100000x128_0_1 (broadcastInDim S1x128 ![1] bcast_S128_S1x128_1 x5) (ix2 n j)
      = x5 (ix1 j) := by
    rw [broadcastInDim_apply _ bcast_S1x128_S100000x128_0_1 _ _ (ix2 (0 : Fin 1) j) (fun a => match a with
        | ⟨0, _⟩ => by show (0 : Nat) = if (1 : Nat) = 1 then 0 else n.val; rw [if_pos rfl]
        | ⟨1, _⟩ => by show j.val = if (128 : Nat) = 1 then 0 else j.val; rw [if_neg (by decide)]),
      broadcastInDim_apply _ bcast_S128_S1x128_1 x5 _ (ix1 j) (fun a => match a with
        | ⟨0, _⟩ => by show j.val = if (128 : Nat) = 1 then 0 else j.val; rw [if_neg (by decide)])]
  have hlo : ∀ k : Fin 128, concatenate S100000x130 1 [⟨S100000x128, x0⟩, ⟨S100000x2, nc⟩]
      concatenates_S100000x128_S100000x2_S100000x130_d1 (ix2 n (lo k)) = x0 (ix2 n k) := fun k =>
    concatenate_pair_apply_left 1 x0 nc concatenates_S100000x128_S100000x2_S100000x130_d1 (ix2 n (lo k)) rfl (ix2 n k)
      (fun b => match b with | ⟨0, _⟩ => rfl | ⟨1, _⟩ => rfl)
  have hhi : ∀ k : Fin 2, concatenate S100000x130 1 [⟨S100000x128, x0⟩, ⟨S100000x2, nc⟩]
      concatenates_S100000x128_S100000x2_S100000x130_d1 (ix2 n (hi k)) = nc (ix2 n k) := fun k =>
    concatenate_pair_apply_right 1 x0 nc concatenates_S100000x128_S100000x2_S100000x130_d1 (ix2 n (hi k)) rfl rfl (ix2 n k)
      (fun b hb => match b with | ⟨0, _⟩ => rfl | ⟨1, _⟩ => absurd rfl hb) (by show k.val + 128 = 128 + k.val; omega)
  rw [hz, hb]
  simp only [Host.dotGeneral]
  rw [Ideal.dotGeneral_apply, dot_rows, sum_contr, sum_split]
  simp only [hlo, hhi]

end Cert.ReferenceIdeal.RefValue

end
-- ==== Proof.Bridge.lean ====
/-
  The kernel's one scatter is the reference's two.

  The kernel scatters the 12800000 rows "currents, then their negatives" by the indices "receivers, then senders".
  Read at node n and column k this is the k-th column summed over the first 6400000 rows whose receiver is n,
  plus the negated k-th column summed over the last 6400000 rows whose sender is n. When the currents are real
  numbers the second sum is the negative of the senders' sum, so the whole is the reference's net current: in by
  receiver minus out by sender.
-/
import proofs.«103068_j12678743458331_2_alg».proof.Proof.KernelHost
import proofs.«103068_j12678743458331_2_alg».proof.Proof.RefValue

set_option maxRecDepth 16384

noncomputable section

open scoped BigOperators

namespace Cert.Bridge

open Idealize.ShloMosaic Idealize.ShloMosaic.ValueIdx Cert.LibRowScatter Finset
open Cert.KernelIdeal Cert.KernelIdeal.Gen Cert.KernelIdeal.Hand

/-! ## The two programs spell the shared values alike -/

theorem vEdge_eq (x0 : (⟨S100000x128, .f32⟩ : BufTy).Contents (Elt Ideal)) (snd rcv : (⟨S6400000, .i32⟩ : BufTy).Contents (Elt Ideal)) :
    Cert.KernelIdeal.Hand.vEdge (F := Ideal) x0 snd rcv = Cert.ReferenceIdeal.Hand.vEdge (F := Ideal) x0 snd rcv := rfl

theorem iEdge_eq (ef ve : (⟨S6400000x2, .f32⟩ : BufTy).Contents (Elt Ideal)) :
    Cert.KernelIdeal.Hand.iEdge (F := Ideal) ef ve = Cert.ReferenceIdeal.Hand.iEdge (F := Ideal) ef ve := rfl

/-! ## The kernel's scatter operands at an entry -/

theorem kzeros_apply (i : S100000x2.Idx) : zeros2 (F := Ideal) i = 0 := by
  unfold zeros2
  rw [broadcastInDim_apply _ bcast_S_S100000x2 _ i ix0 (fun a => a.elim0), constant_apply, Ideal.ofBits_zero_f32]

/-- The joined index column at row e is the joined index array at e. -/
theorem bothCol_apply (snd rcv : (⟨S6400000, .i32⟩ : BufTy).Contents (Elt Ideal)) (e : Fin 12800000) :
    bothCol (F := Ideal) snd rcv (ix2 e (0 : Fin 1))
      = concatenate S12800000 0 [⟨S6400000, rcv⟩, ⟨S6400000, snd⟩] concatenates_S6400000_S6400000_S12800000_d0 (ix1 e) := by
  unfold bothCol
  exact broadcastInDim_apply _ bcast_S12800000_S12800000x1_0 _ (ix2 e (0 : Fin 1)) (ix1 e) (fun a => match a with
    | ⟨0, _⟩ => by show e.val = if (12800000 : Nat) = 1 then 0 else e.val; rw [if_neg (by decide)])

/-- Its first half is the receivers. -/
theorem bothCol_fst (snd rcv : (⟨S6400000, .i32⟩ : BufTy).Contents (Elt Ideal)) (e : Fin 12800000) (h : e.val < 6400000) :
    bothCol (F := Ideal) snd rcv (ix2 e (0 : Fin 1)) = rcv (ix1 ⟨e.val, h⟩) := by
  rw [bothCol_apply]
  exact concatenate_pair_apply_left 0 rcv snd concatenates_S6400000_S6400000_S12800000_d0 (ix1 e) rfl (ix1 ⟨e.val, h⟩)
    (fun b => match b with | ⟨0, _⟩ => rfl)

/-- Its second half is the senders. -/
theorem bothCol_snd (snd rcv : (⟨S6400000, .i32⟩ : BufTy).Contents (Elt Ideal)) (e : Fin 12800000) (h : 6400000 ≤ e.val) :
    bothCol (F := Ideal) snd rcv (ix2 e (0 : Fin 1)) = snd (ix1 ⟨e.val - 6400000, by have := e.isLt; omega⟩) := by
  rw [bothCol_apply]
  exact concatenate_pair_apply_right 0 rcv snd concatenates_S6400000_S6400000_S12800000_d0 (ix1 e) rfl rfl
    (ix1 ⟨e.val - 6400000, by have := e.isLt; omega⟩)
    (fun b hb => match b with | ⟨0, _⟩ => absurd rfl hb) (by show e.val - 6400000 + 6400000 = e.val; omega)

/-- The joined values' first half is the currents. -/
theorem bothCur_fst (cur : (⟨S6400000x2, .f32⟩ : BufTy).Contents (Elt Ideal)) (e : Fin 12800000) (k : Fin 2) (h : e.val < 6400000) :
    bothCur (F := Ideal) cur (ix2 e k) = cur (ix2 ⟨e.val, h⟩ k) := by
  unfold bothCur
  exact concatenate_pair_apply_left 0 cur _ concatenates_S6400000x2_S6400000x2_S12800000x2_d0 (ix2 e k) rfl (ix2 ⟨e.val, h⟩ k)
    (fun b => match b with | ⟨0, _⟩ => rfl | ⟨1, _⟩ => rfl)

/-- The joined values' second half is the negated currents. -/
theorem bothCur_snd (cur : (⟨S6400000x2, .f32⟩ : BufTy).Contents (Elt Ideal)) (e : Fin 12800000) (k : Fin 2) (h : 6400000 ≤ e.val) :
    bothCur (F := Ideal) cur (ix2 e k) = -(cur (ix2 ⟨e.val - 6400000, by have := e.isLt; omega⟩ k)) := by
  unfold bothCur
  exact concatenate_pair_apply_right 0 cur _ concatenates_S6400000x2_S6400000x2_S12800000x2_d0 (ix2 e k) rfl rfl
    (ix2 ⟨e.val - 6400000, by have := e.isLt; omega⟩ k)
    (fun b hb => match b with | ⟨0, _⟩ => absurd rfl hb | ⟨1, _⟩ => rfl) (by show e.val - 6400000 + 6400000 = e.val; omega)

/-- The kernel's scatter is a scatter of rows. -/
theorem scatter_rows : scatter_S100000x2_S12800000x1_S12800000x2_1_0_0_1
    = rowDims 100000 2 12800000 scatter_S100000x2_S12800000x1_S12800000x2_1_0_0_1_wf := rfl

/-! ## The law -/

/-- THE NET CURRENT, both ways: for real currents the kernel's one scatter is the reference's difference of two. -/
theorem fused_eq_net (snd rcv : (⟨S6400000, .i32⟩ : BufTy).Contents (Elt Ideal)) (cur : (⟨S6400000x2, .f32⟩ : BufTy).Contents (Elt Ideal))
    (hcur : Cert.ReferenceIdeal.RefValue.AllReal cur) :
    fusedCurrent (F := Ideal) snd rcv cur = Cert.ReferenceIdeal.Hand.netCurrent (F := Ideal) snd rcv cur := by
  funext i
  obtain ⟨n, k, rfl⟩ : ∃ (n : Fin 100000) (k : Fin 2), i = ix2 n k := ⟨i 0, i 1, eq_ix2 i⟩
  choose υ hυ using hcur
  obtain rfl : cur = fun j => ((υ j : ℝ) : EReal) := funext hυ
  unfold Cert.ReferenceIdeal.Hand.netCurrent
  rw [subf_apply, Cert.ReferenceIdeal.RefValue.scatterBy_apply, Cert.ReferenceIdeal.RefValue.scatterBy_apply]
  unfold fusedCurrent
  rw [Cert.ReferenceIdeal.RefValue.scatterAdd_ideal, scatter_rows, hostScatterAdd_rows_apply, kzeros_apply, zero_add]
  refine sum_fused (E := 6400000) (E2 := 12800000) (by norm_num) (n.val : Int)
    (fun e => (rcv (ix1 e)).toInt) (fun e => (snd (ix1 e)).toInt) (fun e => υ (ix2 e k))
    (fun e => (bothCol (F := Ideal) snd rcv (rowAt e)).toInt) (fun e => bothCur (F := Ideal) (fun j => ((υ j : ℝ) : EReal)) (ix2 e k)) ?_ ?_
  · intro e h
    exact ⟨by rw [show rowAt e = ix2 e (0 : Fin 1) from rfl, bothCol_fst snd rcv e h], bothCur_fst _ e k h⟩
  · intro e h
    exact ⟨by rw [show rowAt e = ix2 e (0 : Fin 1) from rfl, bothCol_snd snd rcv e h], bothCur_snd _ e k h⟩

end Cert.Bridge

end
-- ==== Proof.Finite.lean ====
/-
  From the precondition to real entries.

  The precondition says, of each float argument, that every entry's absolute value is below +∞ (the conjunction
  of four such tests, each an "all" over the array). An extended real whose absolute value is below +∞ is a real
  number. Read here for the two arguments the fused-scatter law needs: the node features and the edge features.
-/
import proofs.«103068_j12678743458331_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.FiniteInputs

open Idealize.ShloMosaic Idealize.ShloMosaic.ValueIdx

instance : Subsingleton (⟨0, ![]⟩ : Shape).Idx := ⟨fun _ _ => funext fun d => d.elim0⟩

/-- The word 0x7F800000 is +∞. -/
theorem top_word : Ideal.ofBits .f32 0x7F800000#32 = ⊤ := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The elementwise test "|x| < +∞", passed at an entry, makes that entry real. -/
theorem real_of_test {s : Shape} (x : FVec Ideal s .f32) (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = (r : EReal) := by
  apply real_of_abs_lt_top
  rw [cmpf_apply, broadcastInDim_apply _ hb _ i ix0 (fun a => a.elim0), constant_apply, top_word] at h
  have h' : Ideal.cmp .olt (max (x i) (-(x i))) ⊤ = 1#1 := h
  by_contra hn
  have h0 : Ideal.cmp .olt (max (x i) (-(x i))) ⊤ = 0#1 := by
    simp only [Ideal.cmp, decide_eq_false hn]
    rfl
  rw [h0] at h'
  exact absurd h' (by decide)

open Cert.Pre_finite_inputs in
/-- Under the precondition the node features and the edge features are real. -/
theorem real_of_pre [Cert.Pre_finite_inputs.Facts] (a0 : FVec Ideal S100000x128 .f32) (a1 a2 : IVec S6400000 32)
    (a3 : FVec Ideal S6400000x2 .f32) (a4 : FVec Ideal S130x128 .f32) (a5 : FVec Ideal S128 .f32)
    (h : Cert.Pre_finite_inputs.fn (F := Ideal) a0 a1 a2 a3 a4 a5 = fun _ => 1#1) :
    (∀ i, ∃ r : ℝ, a0 i = (r : EReal)) ∧ (∀ i, ∃ r : ℝ, a3 i = (r : EReal)) := by
  have e := congrFun h ix0
  unfold Cert.Pre_finite_inputs.fn Cert.Pre_finite_inputs.fn_part1 at e
  simp only [andi] at e
  obtain ⟨h13, -⟩ := IntOp.andi_eq_one.mp e
  obtain ⟨h8, -⟩ := IntOp.andi_eq_one.mp h13
  obtain ⟨h3, h7⟩ := IntOp.andi_eq_one.mp h8
  exact ⟨fun i => real_of_test a0 _ i (Host.reduce_andi_all _ _ _ _ ix0 h3 i),
    fun i => real_of_test a3 _ i (Host.reduce_andi_all _ _ _ _ ix0 h7 i)⟩

end Cert.FiniteInputs

end
-- ==== Proof.Claims.lean ====
/-
  The claims.

  Over the extended reals both programs end with
    · the edge voltages  V_edge = V2[receivers] − V2[senders],
    · the edge currents  I_edge = (G·V_re − B·V_im, G·V_im + B·V_re),
    · the node output    max( [V | c]·W + b , 0 )  with c the net current into each node,
  as the same functions of the arguments. The first two are computed by the same host operations in both. For the
  third, the kernel forms c by one scatter of (I_edge, −I_edge) by (receivers, senders) and the layer as
  V·W_top + c·W_bot + b in 20 row blocks; the reference forms c as a difference of two scatters and the layer as
  one 130-term product. The scatters agree because the currents are real numbers under the precondition (negation
  then distributes over the sum); the products agree by splitting the sum at 128.
-/
import proofs.«103068_j12678743458331_2_alg».proof.Defs
import proofs.«103068_j12678743458331_2_alg».proof.Proof.Gen.Kernel.Frame
import proofs.«103068_j12678743458331_2_alg».proof.Proof.Gen.KernelIdeal.Value
import proofs.«103068_j12678743458331_2_alg».proof.Proof.Gen.Pre_finite_inputs
import proofs.«103068_j12678743458331_2_alg».proof.Proof.KernelValue
import proofs.«103068_j12678743458331_2_alg».proof.Proof.Bridge
import proofs.«103068_j12678743458331_2_alg».proof.Proof.RefValue
import proofs.«103068_j12678743458331_2_alg».proof.Proof.RefRun
import proofs.«103068_j12678743458331_2_alg».proof.Proof.Finite

set_option maxRecDepth 16384

noncomputable section

namespace Cert.Proof.Claims

open Idealize.ShloMosaic Idealize.ShloMosaic.TcCoe Idealize.SL.Sem

/-! ## The kernel's run, all three results named -/

section KernelRun
open Cert.KernelIdeal Cert.KernelIdeal.Gen

/-- Every weakly fair execution of the idealized kernel terminates with the output array at the layer of the
    arrays the launch finds, the edge currents and voltages at the host operations' values, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v42) = Cert.KernelIdeal.KValue.layer m c
      ∧ r.2.mem ((c : Thread nD τ).loc main_v32)
          = Cert.KernelIdeal.Hand.iEdge (m ((c : Thread nD τ).loc main_arg3))
              (Cert.KernelIdeal.Hand.vEdge (m ((c : Thread nD τ).loc main_arg0)) (m ((c : Thread nD τ).loc main_arg1)) (m ((c : Thread nD τ).loc main_arg2)))
      ∧ r.2.mem ((c : Thread nD τ).loc main_v15)
          = Cert.KernelIdeal.Hand.vEdge (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨(Cert.KernelIdeal.Value.post5 m r h c).trans (Cert.KernelIdeal.KValue.final m c),
       ((h c).2 main_v32 (Pipeline.mem_restRefs_of main_v32 (by decide) (by decide))).trans (Cert.KernelIdeal.Hand.V_iEdge m c),
       ((h c).2 main_v15 (Pipeline.mem_restRefs_of main_v15 (by decide) (by decide))).trans (Cert.KernelIdeal.Hand.V_vEdge m c),
       Cert.KernelIdeal.Value.kept_main_arg0 m r h c,
       Cert.KernelIdeal.Value.kept_main_arg1 m r h c,
       Cert.KernelIdeal.Value.kept_main_arg2 m r h c,
       Cert.KernelIdeal.Value.kept_main_arg3 m r h c,
       Cert.KernelIdeal.Value.kept_main_arg4 m r h c,
       Cert.KernelIdeal.Value.kept_main_arg5 m r h c⟩)
    (run_main m ρ)

end KernelRun

/-! ## The frames -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Hand.run (F := Ideal) m ρ)

/-! ## Equal results -/

theorem algebraic : Cert.algebraic_KernelIdeal_ReferenceIdeal := by
  intro m ρ m' ρ' hpre hagree
  refine ⟨fun c => Cert.KernelIdeal.KValue.layer m c,
    fun c => Cert.KernelIdeal.Hand.iEdge (m ((c : Thread Cert.KernelIdeal.nD Cert.KernelIdeal.τ).loc Cert.KernelIdeal.main_arg3)) (Cert.KernelIdeal.Hand.vEdge (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))),
    fun c => Cert.KernelIdeal.Hand.vEdge (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)),
    kernel_run m ρ, ?_⟩
  refine (θ_run Cert.ReferenceIdeal.defs _ _).mono (fun _ h c => ?_) (Cert.ReferenceIdeal.Hand.run (F := Ideal) m' ρ')
  obtain ⟨h45, h32, h15, hargs⟩ := h c
  obtain ⟨a0, a1, a2, a3, a4, a5⟩ := hagree c
  obtain ⟨hx, hef⟩ := Cert.FiniteInputs.real_of_pre _ _ _ _ _ _ (hpre c)
  refine ⟨?_, ?_, ?_, hargs⟩
  · show _ = Cert.KernelIdeal.KValue.layer m c
    rw [h45, a0, a1, a2, a3, a4, a5, Cert.ReferenceIdeal.RefValue.outRef_eq_dense]
    unfold Cert.KernelIdeal.KValue.layer Cert.KernelIdeal.KValue.netK
    rw [Cert.Bridge.iEdge_eq, Cert.Bridge.vEdge_eq,
      Cert.Bridge.fused_eq_net _ _ _ (Cert.ReferenceIdeal.RefValue.iEdge_real _ _ hef (Cert.ReferenceIdeal.RefValue.vEdge_real _ _ _ hx))]
  · show _ = Cert.KernelIdeal.Hand.iEdge _ (Cert.KernelIdeal.Hand.vEdge _ _ _)
    rw [h32, a0, a1, a2, a3, Cert.Bridge.iEdge_eq, Cert.Bridge.vEdge_eq]
  · show _ = Cert.KernelIdeal.Hand.vEdge _ _ _
    rw [h15, a0, a1, a2, Cert.Bridge.vEdge_eq]

end Cert.Proof.Claims

end
-- ==== Proof.lean ====
/-
  A graph layer of Kirchhoff's and Ohm's laws followed by a dense layer, 100000 nodes and 6400000 edges.

  For every edge, the voltage is the receiver's first two features minus the sender's; the current is the complex
  product of the edge's admittance with that voltage. The net current into a node is what its incoming edges carry
  minus what its outgoing edges carry. The node's output is its 128 features joined with its net current, times a
  130 × 128 weight matrix, plus a bias, rectified.

  The kernel program obtains the net current by one scatter of the currents and their negatives, and computes the
  dense layer in 20 blocks of 5000 rows as two partial products; the reference takes the difference of two
  scatters and one product over the joined rows. Over the extended reals, for real inputs, these are the same
  numbers: Proof/Claims.lean assembles the argument from
    Proof/LibRowScatter.lean  a scatter of rows read at an entry; two scatters fused into one,
    Proof/DenseSpec.lean      the dense layer as one function; a sum over 130 split at 128,
    Proof/RefRun.lean         the reference's run, in three stretches,
    Proof/RefValue.lean       the reference's values entry by entry,
    Proof/KernelHost.lean     the kernel's host operations, in three stretches,
    Proof/KernelValue.lean    what the launched layer leaves in the output array,
    Proof/Bridge.lean         the kernel's one scatter is the reference's two,
    Proof/Finite.lean         real entries from the precondition.
-/
import proofs.«103068_j12678743458331_2_alg».proof.Defs
import proofs.«103068_j12678743458331_2_alg».proof.Proof.Gen.Kernel
import proofs.«103068_j12678743458331_2_alg».proof.Proof.Gen.Kernel.Skeleton
import proofs.«103068_j12678743458331_2_alg».proof.Proof.Gen.Kernel.Launch
import proofs.«103068_j12678743458331_2_alg».proof.Proof.Gen.Kernel.Points
import proofs.«103068_j12678743458331_2_alg».proof.Proof.Gen.Kernel.Frame
import proofs.«103068_j12678743458331_2_alg».proof.Proof.Gen.KernelIdeal
import proofs.«103068_j12678743458331_2_alg».proof.Proof.Gen.KernelIdeal.Skeleton
import proofs.«103068_j12678743458331_2_alg».proof.Proof.Gen.KernelIdeal.Launch
import proofs.«103068_j12678743458331_2_alg».proof.Proof.Gen.KernelIdeal.Points
import proofs.«103068_j12678743458331_2_alg».proof.Proof.Gen.KernelIdeal.Frame
import proofs.«103068_j12678743458331_2_alg».proof.Proof.Gen.ReferenceIdeal
import proofs.«103068_j12678743458331_2_alg».proof.Proof.Gen.Pre_finite_inputs
import proofs.«103068_j12678743458331_2_alg».proof.Proof.Gen.KernelIdeal.Value
import proofs.«103068_j12678743458331_2_alg».proof.Proof.Claims
import Idealize.ShloMosaic.Adequacy
import Idealize.ShloMosaic.Init

noncomputable section

namespace Cert.Proof

open Idealize.ShloMosaic Idealize.SL.Sem Cert.Kernel

/-- The three programs run and leave their arguments alone; the idealization rewrote nothing; and the idealized
    kernel and reference end with equal results. -/
theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
